-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32768x4x4 : Shape := ⟨4, ![16, 32768, 4, 4]⟩
abbrev S16x32768x8x8 : Shape := ⟨4, ![16, 32768, 8, 8]⟩
abbrev S_ : Shape := ⟨0, ![]⟩

class Facts : Prop where
  bcast_S_S16x32768x4x4 : S_.BroadcastsInDim S16x32768x4x4 (![] : Fin 0 → Fin S16x32768x4x4.rank)
  reducesTo_S16x32768x4x4_S_d0_1_2_3 : S16x32768x4x4.ReducesTo [0, 1, 2, 3] S_
  h_S_ : 0 < S_.numel
  bcast_S_S16x32768x8x8 : S_.BroadcastsInDim S16x32768x8x8 (![] : Fin 0 → Fin S16x32768x8x8.rank)
  reducesTo_S16x32768x8x8_S_d0_1_2_3 : S16x32768x8x8.ReducesTo [0, 1, 2, 3] S_

variable [Facts]

def fn_part1 {F : FTy → Type} [FloatOps F] (main_v13 : IVec S_ 1) (main_v16 : IVec S16x32768x8x8 1) : IVec S_ 1 :=
  let main_c_5 : IVec S_ 1 := constantI S_ 1 1#1
  let main_v17 : IVec S_ 1 := (fun x v => Host.reduce IntOp.andi x v reducesTo_S16x32768x8x8_S_d0_1_2_3 h_S_) main_v16 main_c_5
  let main_v18 : IVec S_ 1 := andi main_v13 main_v17
  main_v18

def fn {F : FTy → Type} [FloatOps F] (main_arg0 : FVec F S16x32768x4x4 .f32) (main_arg1 : FVec F S16x32768x8x8 .f32) (main_arg2 : FVec F S16x32768x4x4 .f32) (main_arg3 : FVec F S16x32768x8x8 .f32) : IVec S_ 1 :=
  let main_v0 : FVec F S16x32768x4x4 .f32 := Host.absf main_arg0
  let main_cst : FVec F S_ .f32 := constant S_ .f32 0x7F800000#32
  let main_v1 : FVec F S16x32768x4x4 .f32 := broadcastInDim S16x32768x4x4 ![] bcast_S_S16x32768x4x4 main_cst
  let main_v2 : IVec S16x32768x4x4 1 := cmpf .olt main_v0 main_v1
  let main_c : IVec S_ 1 := constantI S_ 1 1#1
  let main_v3 : IVec S_ 1 := (fun x v => Host.reduce IntOp.andi x v reducesTo_S16x32768x4x4_S_d0_1_2_3 h_S_) main_v2 main_c
  let main_v4 : FVec F S16x32768x8x8 .f32 := Host.absf main_arg1
  let main_cst_0 : FVec F S_ .f32 := constant S_ .f32 0x7F800000#32
  let main_v5 : FVec F S16x32768x8x8 .f32 := broadcastInDim S16x32768x8x8 ![] bcast_S_S16x32768x8x8 main_cst_0
  let main_v6 : IVec S16x32768x8x8 1 := cmpf .olt main_v4 main_v5
  let main_c_1 : IVec S_ 1 := constantI S_ 1 1#1
  let main_v7 : IVec S_ 1 := (fun x v => Host.reduce IntOp.andi x v reducesTo_S16x32768x8x8_S_d0_1_2_3 h_S_) main_v6 main_c_1
  let main_v8 : IVec S_ 1 := andi main_v3 main_v7
  let main_v9 : FVec F S16x32768x4x4 .f32 := Host.absf main_arg2
  let main_cst_2 : FVec F S_ .f32 := constant S_ .f32 0x7F800000#32
  let main_v10 : FVec F S16x32768x4x4 .f32 := broadcastInDim S16x32768x4x4 ![] bcast_S_S16x32768x4x4 main_cst_2
  let main_v11 : IVec S16x32768x4x4 1 := cmpf .olt main_v9 main_v10
  let main_c_3 : IVec S_ 1 := constantI S_ 1 1#1
  let main_v12 : IVec S_ 1 := (fun x v => Host.reduce IntOp.andi x v reducesTo_S16x32768x4x4_S_d0_1_2_3 h_S_) main_v11 main_c_3
  let main_v13 : IVec S_ 1 := andi main_v8 main_v12
  let main_v14 : FVec F S16x32768x8x8 .f32 := Host.absf main_arg3
  let main_cst_4 : FVec F S_ .f32 := constant S_ .f32 0x7F800000#32
  let main_v15 : FVec F S16x32768x8x8 .f32 := broadcastInDim S16x32768x8x8 ![] bcast_S_S16x32768x8x8 main_cst_4
  let main_v16 : IVec S16x32768x8x8 1 := cmpf .olt main_v14 main_v15
  fn_part1 (F := F) main_v13 main_v16
-- ==== Kernel.lean ====
abbrev S16x32768x4x4 : Shape := ⟨4, ![16, 32768, 4, 4]⟩
abbrev S16x32768x8x8 : Shape := ⟨4, ![16, 32768, 8, 8]⟩
abbrev S16x32768x16 : Shape := ⟨3, ![16, 32768, 16]⟩
abbrev S16x32768x64 : Shape := ⟨3, ![16, 32768, 64]⟩
abbrev S16x16 : Shape := ⟨2, ![16, 16]⟩
abbrev S16x64 : Shape := ⟨2, ![16, 64]⟩
abbrev S8x2048x16 : Shape := ⟨3, ![8, 2048, 16]⟩
abbrev S8x2048x64 : Shape := ⟨3, ![8, 2048, 64]⟩
abbrev S8x16 : Shape := ⟨2, ![8, 16]⟩
abbrev S8x64 : Shape := ⟨2, ![8, 64]⟩
abbrev S8x2048 : Shape := ⟨2, ![8, 2048]⟩
abbrev S8 : Shape := ⟨1, ![8]⟩
abbrev S8x1 : Shape := ⟨2, ![8, 1]⟩

abbrev nBuf : Space → Nat
  | .hbm => 12
  | .vmem => 16
  | .smem => 0
  | _ => 0

abbrev bufTy : (tb : Table) → Fin (tcTables nBuf tb) → BufTy
  | .hbm, ⟨0, _⟩ => ⟨S16x32768x4x4, .f32⟩
  | .hbm, ⟨1, _⟩ => ⟨S16x32768x8x8, .f32⟩
  | .hbm, ⟨2, _⟩ => ⟨S16x32768x4x4, .f32⟩
  | .hbm, ⟨3, _⟩ => ⟨S16x32768x8x8, .f32⟩
  | .hbm, ⟨4, _⟩ => ⟨S16x32768x16, .f32⟩
  | .hbm, ⟨5, _⟩ => ⟨S16x32768x64, .f32⟩
  | .hbm, ⟨6, _⟩ => ⟨S16x16, .f32⟩
  | .hbm, ⟨7, _⟩ => ⟨S16x64, .f32⟩
  | .hbm, ⟨8, _⟩ => ⟨S16x32768x16, .f32⟩
  | .hbm, ⟨9, _⟩ => ⟨S16x32768x64, .f32⟩
  | .hbm, ⟨10, _⟩ => ⟨S16x16, .f32⟩
  | .hbm, ⟨11, _⟩ => ⟨S16x64, .f32⟩
  | .local _ .vmem, ⟨0, _⟩ => ⟨S8x2048x16, .f32⟩
  | .local _ .vmem, ⟨1, _⟩ => ⟨S8x2048x16, .f32⟩
  | .local _ .vmem, ⟨2, _⟩ => ⟨S8x2048x64, .f32⟩
  | .local _ .vmem, ⟨3, _⟩ => ⟨S8x2048x64, .f32⟩
  | .local _ .vmem, ⟨4, _⟩ => ⟨S8x16, .f32⟩
  | .local _ .vmem, ⟨5, _⟩ => ⟨S8x16, .f32⟩
  | .local _ .vmem, ⟨6, _⟩ => ⟨S8x64, .f32⟩
  | .local _ .vmem, ⟨7, _⟩ => ⟨S8x64, .f32⟩
  | .local _ .vmem, ⟨8, _⟩ => ⟨S8x2048x16, .f32⟩
  | .local _ .vmem, ⟨9, _⟩ => ⟨S8x2048x16, .f32⟩
  | .local _ .vmem, ⟨10, _⟩ => ⟨S8x2048x64, .f32⟩
  | .local _ .vmem, ⟨11, _⟩ => ⟨S8x2048x64, .f32⟩
  | .local _ .vmem, ⟨12, _⟩ => ⟨S8x16, .f32⟩
  | .local _ .vmem, ⟨13, _⟩ => ⟨S8x16, .f32⟩
  | .local _ .vmem, ⟨14, _⟩ => ⟨S8x64, .f32⟩
  | .local _ .vmem, ⟨15, _⟩ => ⟨S8x64, .f32⟩
  | _, _ => ⟨S16x32768x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S16x32768x4x4_S16x32768x16 : S16x32768x4x4.ShapeCasts S16x32768x16
  shapeCasts_S16x32768x8x8_S16x32768x64 : S16x32768x8x8.ShapeCasts S16x32768x64
  inb_S8x16_S8x16_0_0 : ∀ a, (![0, 0] : Fin 2 → Nat) a + S8x16.size a ≤ S8x16.size a
  h_S8x16 : 0 < S8x16.numel
  inb_S8x64_S8x64_0_0 : ∀ a, (![0, 0] : Fin 2 → Nat) a + S8x64.size a ≤ S8x64.size a
  h_S8x64 : 0 < S8x64.numel
  inb_S8x2048x16_S8x2048x16_0_0_0 : ∀ a, (![0, 0, 0] : Fin 3 → Nat) a + S8x2048x16.size a ≤ S8x2048x16.size a
  h_S8x2048x16 : 0 < S8x2048x16.numel
  shapeCasts_S8x2048x16_S8x2048x16 : S8x2048x16.ShapeCasts S8x2048x16
  reduces_S8x2048x16_S8x2048 : S8x2048x16.Reduces [2] S8x2048
  natLt_1_32 : 1 < 32
  reduces_S8x2048_S8 : S8x2048.Reduces [1] S8
  shapeCasts_S8_S8x1 : S8.ShapeCasts S8x1
  concatenates_S8x1_S8x1_S8x1_S8x1_S8x1_S8x1_S8x1_S8x1_S8x1_S8x1_S8x1_S8x1_S8x1_S8x1_S8x1_S8x1_S8x16_d1 : Shape.Concatenates [S8x1, S8x1, S8x1, S8x1, S8x1, S8x1, S8x1, S8x1, S8x1, S8x1, S8x1, S8x1, S8x1, S8x1, S8x1, S8x1] S8x16 1
  shapeCasts_S8x16_S8x16 : S8x16.ShapeCasts S8x16
  inb_S8x2048x64_S8x2048x64_0_0_0 : ∀ a, (![0, 0, 0] : Fin 3 → Nat) a + S8x2048x64.size a ≤ S8x2048x64.size a
  h_S8x2048x64 : 0 < S8x2048x64.numel
  shapeCasts_S8x2048x64_S8x2048x64 : S8x2048x64.ShapeCasts S8x2048x64
  reduces_S8x2048x64_S8x2048 : S8x2048x64.Reduces [2] S8x2048
  concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x64_d1 : Shape.Concatenates (S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: S8x1 :: []) S8x64 1
  shapeCasts_S8x64_S8x64 : S8x64.ShapeCasts S8x64
  reduces_S8x16_S8 : S8x16.Reduces [1] S8
  broadcasts_S8x1_S8x16 : S8x1.Broadcasts S8x16
  reduces_S8x64_S8 : S8x64.Reduces [1] S8
  broadcasts_S8x1_S8x64 : S8x1.Broadcasts S8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x16.size a ≤ S16x32768x16.size a
  hwx0_0 : ∀ i : grid0.Coords, EltTy.bits .f32 = 32 ∨ (Rect.block (s := S16x32768x16) S8x2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x64.size a ≤ S16x32768x64.size a
  hwx0_1 : ∀ i : grid0.Coords, EltTy.bits .f32 = 32 ∨ (Rect.block (s := S16x32768x64) S8x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S16x16.size a
  hwx0_2 : ∀ i : grid0.Coords, EltTy.bits .f32 = 32 ∨ (Rect.block (s := S16x16) S8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S16x64.size a
  hwx0_3 : ∀ i : grid0.Coords, EltTy.bits .f32 = 32 ∨ (Rect.block (s := S16x64) S8x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x2048x16.size a ≤ S16x32768x16.size a
  hwx1_0 : ∀ i : grid1.Coords, EltTy.bits .f32 = 32 ∨ (Rect.block (s := S16x32768x16) S8x2048x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x2048x64.size a ≤ S16x32768x64.size a
  hwx1_1 : ∀ i : grid1.Coords, EltTy.bits .f32 = 32 ∨ (Rect.block (s := S16x32768x64) S8x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S16x16.size a
  hwx1_2 : ∀ i : grid1.Coords, EltTy.bits .f32 = 32 ∨ (Rect.block (s := S16x16) S8x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S16x64.size a
  hwx1_3 : ∀ i : grid1.Coords, EltTy.bits .f32 = 32 ∨ (Rect.block (s := S16x64) S8x64.size (cc1_transform_3 i) (hinb1_3 i)).WholeWords (EltTy.packing .f32)

variable [Facts₀]

abbrev win0_0 : Pipeline.Window sig grid0 :=
  Pipeline.Window.ofSpec (Memref.whole main_v0) S8x2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S8x2048x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S8x16.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S8x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x32768x4x4 : Shape := ⟨4, ![16, 32768, 4, 4]⟩
abbrev S16x32768x8x8 : Shape := ⟨4, ![16, 32768, 8, 8]⟩
abbrev S_ : Shape := ⟨0, ![]⟩
abbrev S16x32768 : Shape := ⟨2, ![16, 32768]⟩
abbrev S16 : Shape := ⟨1, ![16]⟩
abbrev S16x32768x1 : Shape := ⟨3, ![16, 32768, 1]⟩
abbrev S1x1x16 : Shape := ⟨3, ![1, 1, 16]⟩
abbrev S16x32768x16 : Shape := ⟨3, ![16, 32768, 16]⟩
abbrev S16x16 : Shape := ⟨2, ![16, 16]⟩
abbrev S16x1 : Shape := ⟨2, ![16, 1]⟩
abbrev S64 : Shape := ⟨1, ![64]⟩
abbrev S1x1x64 : Shape := ⟨3, ![1, 1, 64]⟩
abbrev S16x32768x64 : Shape := ⟨3, ![16, 32768, 64]⟩
abbrev S16x64 : Shape := ⟨2, ![16, 64]⟩

abbrev nBuf : Space → Nat
  | .hbm => 88
  | .vmem => 0
  | .smem => 0
  | _ => 0

abbrev bufTy : (tb : Table) → Fin (tcTables nBuf tb) → BufTy
  | .hbm, ⟨0, _⟩ => ⟨S16x32768x4x4, .f32⟩
  | .hbm, ⟨1, _⟩ => ⟨S16x32768x8x8, .f32⟩
  | .hbm, ⟨2, _⟩ => ⟨S16x32768x4x4, .f32⟩
  | .hbm, ⟨3, _⟩ => ⟨S16x32768x8x8, .f32⟩
  | .hbm, ⟨4, _⟩ => ⟨S_, .f32⟩
  | .hbm, ⟨5, _⟩ => ⟨S16x32768, .f32⟩
  | .hbm, ⟨6, _⟩ => ⟨S16x32768, .i32⟩
  | .hbm, ⟨7, _⟩ => ⟨S16, .i32⟩
  | .hbm, ⟨8, _⟩ => ⟨S16x32768x1, .i32⟩
  | .hbm, ⟨9, _⟩ => ⟨S1x1x16, .i32⟩
  | .hbm, ⟨10, _⟩ => ⟨S16x32768x16, .i32⟩
  | .hbm, ⟨11, _⟩ => ⟨S16x32768x16, .i32⟩
  | .hbm, ⟨12, _⟩ => ⟨S16x32768x16, .i1⟩
  | .hbm, ⟨13, _⟩ => ⟨S16x32768x16, .i32⟩
  | .hbm, ⟨14, _⟩ => ⟨S_, .i32⟩
  | .hbm, ⟨15, _⟩ => ⟨S16x16, .i32⟩
  | .hbm, ⟨16, _⟩ => ⟨S16x16, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S_, .f32⟩
  | .hbm, ⟨21, _⟩ => ⟨S16, .f32⟩
  | .hbm, ⟨22, _⟩ => ⟨S16x1, .f32⟩
  | .hbm, ⟨23, _⟩ => ⟨S16x16, .f32⟩
  | .hbm, ⟨24, _⟩ => ⟨S16x16, .f32⟩
  | .hbm, ⟨25, _⟩ => ⟨S_, .f32⟩
  | .hbm, ⟨26, _⟩ => ⟨S16x32768, .f32⟩
  | .hbm, ⟨27, _⟩ => ⟨S16x32768, .i32⟩
  | .hbm, ⟨28, _⟩ => ⟨S64, .i32⟩
  | .hbm, ⟨29, _⟩ => ⟨S16x32768x1, .i32⟩
  | .hbm, ⟨30, _⟩ => ⟨S1x1x64, .i32⟩
  | .hbm, ⟨31, _⟩ => ⟨S16x32768x64, .i32⟩
  | .hbm, ⟨32, _⟩ => ⟨S16x32768x64, .i32⟩
  | .hbm, ⟨33, _⟩ => ⟨S16x32768x64, .i1⟩
  | .hbm, ⟨34, _⟩ => ⟨S16x32768x64, .i32⟩
  | .hbm, ⟨35, _⟩ => ⟨S_, .i32⟩
  | .hbm, ⟨36, _⟩ => ⟨S16x64, .i32⟩
  | .hbm, ⟨37, _⟩ => ⟨S16x64, .f32⟩
  | .hbm, ⟨38, _⟩ => ⟨S_, .f32⟩
  | .hbm, ⟨39, _⟩ => ⟨S16x64, .f32⟩
  | .hbm, ⟨40, _⟩ => ⟨S16x64, .f32⟩
  | .hbm, ⟨41, _⟩ => ⟨S_, .f32⟩
  | .hbm, ⟨42, _⟩ => ⟨S16, .f32⟩
  | .hbm, ⟨43, _⟩ => ⟨S16x1, .f32⟩
  | .hbm, ⟨44, _⟩ => ⟨S16x64, .f32⟩
  | .hbm, ⟨45, _⟩ => ⟨S16x64, .f32⟩
  | .hbm, ⟨46, _⟩ => ⟨S_, .f32⟩
  | .hbm, ⟨47, _⟩ => ⟨S16x32768, .f32⟩
  | .hbm, ⟨48, _⟩ => ⟨S16x32768, .i32⟩
  | .hbm, ⟨49, _⟩ => ⟨S16, .i32⟩
  | .hbm, ⟨50, _⟩ => ⟨S16x32768x1, .i32⟩
  | .hbm, ⟨51, _⟩ => ⟨S1x1x16, .i32⟩
  | .hbm, ⟨52, _⟩ => ⟨S16x32768x16, .i32⟩
  | .hbm, ⟨53, _⟩ => ⟨S16x32768x16, .i32⟩
  | .hbm, ⟨54, _⟩ => ⟨S16x32768x16, .i1⟩
  | .hbm, ⟨55, _⟩ => ⟨S16x32768x16, .i32⟩
  | .hbm, ⟨56, _⟩ => ⟨S_, .i32⟩
  | .hbm, ⟨57, _⟩ => ⟨S16x16, .i32⟩
  | .hbm, ⟨58, _⟩ => ⟨S16x16, .f32⟩
  | .hbm, ⟨59, _⟩ => ⟨S_, .f32⟩
  | .hbm, ⟨60, _⟩ => ⟨S16x16, .f32⟩
  | .hbm, ⟨61, _⟩ => ⟨S16x16, .f32⟩
  | .hbm, ⟨62, _⟩ => ⟨S_, .f32⟩
  | .hbm, ⟨63, _⟩ => ⟨S16, .f32⟩
  | .hbm, ⟨64, _⟩ => ⟨S16x1, .f32⟩
  | .hbm, ⟨65, _⟩ => ⟨S16x16, .f32⟩
  | .hbm, ⟨66, _⟩ => ⟨S16x16, .f32⟩
  | .hbm, ⟨67, _⟩ => ⟨S_, .f32⟩
  | .hbm, ⟨68, _⟩ => ⟨S16x32768, .f32⟩
  | .hbm, ⟨69, _⟩ => ⟨S16x32768, .i32⟩
  | .hbm, ⟨70, _⟩ => ⟨S64, .i32⟩
  | .hbm, ⟨71, _⟩ => ⟨S16x32768x1, .i32⟩
  | .hbm, ⟨72, _⟩ => ⟨S1x1x64, .i32⟩
  | .hbm, ⟨73, _⟩ => ⟨S16x32768x64, .i32⟩
  | .hbm, ⟨74, _⟩ => ⟨S16x32768x64, .i32⟩
  | .hbm, ⟨75, _⟩ => ⟨S16x32768x64, .i1⟩
  | .hbm, ⟨76, _⟩ => ⟨S16x32768x64, .i32⟩
  | .hbm, ⟨77, _⟩ => ⟨S_, .i32⟩
  | .hbm, ⟨78, _⟩ => ⟨S16x64, .i32⟩
  | .hbm, ⟨79, _⟩ => ⟨S16x64, .f32⟩
  | .hbm, ⟨80, _⟩ => ⟨S_, .f32⟩
  | .hbm, ⟨81, _⟩ => ⟨S16x64, .f32⟩
  | .hbm, ⟨82, _⟩ => ⟨S16x64, .f32⟩
  | .hbm, ⟨83, _⟩ => ⟨S_, .f32⟩
  | .hbm, ⟨84, _⟩ => ⟨S16, .f32⟩
  | .hbm, ⟨85, _⟩ => ⟨S16x1, .f32⟩
  | .hbm, ⟨86, _⟩ => ⟨S16x64, .f32⟩
  | .hbm, ⟨87, _⟩ => ⟨S16x64, .f32⟩
  | _, _ => ⟨S16x32768x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_11 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]

class Facts₀ : Prop where
  reducesTo_S16x32768x4x4_S16x32768_d2_3 : S16x32768x4x4.ReducesTo [2, 3] S16x32768
  h_S_ : 0 < S_.numel
  bcast_S16x32768_S16x32768x1_0_1 : S16x32768.BroadcastsInDim S16x32768x1 (![0, 1] : Fin 2 → Fin S16x32768x1.rank)
  bcast_S16_S1x1x16_2 : S16.BroadcastsInDim S1x1x16 (![2] : Fin 1 → Fin S1x1x16.rank)
  bcast_S16x32768x1_S16x32768x16_0_1_2 : S16x32768x1.BroadcastsInDim S16x32768x16 (![0, 1, 2] : Fin 3 → Fin S16x32768x16.rank)
  bcast_S1x1x16_S16x32768x16_0_1_2 : S1x1x16.BroadcastsInDim S16x32768x16 (![0, 1, 2] : Fin 3 → Fin S16x32768x16.rank)
  natLt_1_32 : 1 < 32
  reducesTo_S16x32768x16_S16x16_d1 : S16x32768x16.ReducesTo [1] S16x16
  bcast_S_S16x16 : S_.BroadcastsInDim S16x16 (![] : Fin 0 → Fin S16x16.rank)
  reducesTo_S16x16_S16_d1 : S16x16.ReducesTo [1] S16
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  reducesTo_S16x32768x8x8_S16x32768_d2_3 : S16x32768x8x8.ReducesTo [2, 3] S16x32768
  bcast_S64_S1x1x64_2 : S64.BroadcastsInDim S1x1x64 (![2] : Fin 1 → Fin S1x1x64.rank)
  bcast_S16x32768x1_S16x32768x64_0_1_2 : S16x32768x1.BroadcastsInDim S16x32768x64 (![0, 1, 2] : Fin 3 → Fin S16x32768x64.rank)
  bcast_S1x1x64_S16x32768x64_0_1_2 : S1x1x64.BroadcastsInDim S16x32768x64 (![0, 1, 2] : Fin 3 → Fin S16x32768x64.rank)
  reducesTo_S16x32768x64_S16x64_d1 : S16x32768x64.ReducesTo [1] S16x64
  bcast_S_S16x64 : S_.BroadcastsInDim S16x64 (![] : Fin 0 → Fin S16x64.rank)
  reducesTo_S16x64_S16_d1 : S16x64.ReducesTo [1] S16
  bcast_S16x1_S16x64_0_1 : S16x1.BroadcastsInDim S16x64 (![0, 1] : Fin 2 → Fin S16x64.rank)

variable [Facts₀]

class Facts : Prop extends Facts₀ where

variable [Facts]
-- ==== Proof.K0Payload.lean ====
/-
  What one grid point's body leaves in the two histogram blocks, as functions of the point's input blocks
  (region 0 of the idealized kernel; any float instance).

  The body adds to each running block of counts the point's own counts (`upd16`, `upd64`); at the first point
  of a row block the running block is the zero block it has just stored; at the last point the updated block is
  divided by the number of patches and then by its row sums (`k0_pay3`, `k0_pay4`).  Each lemma reads the
  stores found by the body's run back as that composite.
-/
import proofs.«177430_j31885837205965_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hist0

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 16-bin block after a point: the running block `xo` plus the point's counts of its 4×4 boxes `x0`. -/
def upd16 (x0 : Vec F S8x2048x16 .f32) (xo : Vec F S8x16 .f32) : FVec F S8x16 .f32 :=
  k0_pay22 (k0_pay7 x0) (k0_pay8 x0) (k0_pay9 x0) (k0_pay10 x0) (k0_pay11 x0) (k0_pay12 x0) (k0_pay14 (k0_pay13 x0)) (k0_pay15 (k0_pay7 x0)) (k0_pay16 (k0_pay7 x0)) (k0_pay17 (k0_pay7 x0)) (k0_pay18 (k0_pay7 x0)) (k0_pay19 (k0_pay7 x0)) (k0_pay20 (k0_pay7 x0)) (k0_pay21 (k0_pay7 x0)) xo

/-- The 64-bin block after a point: the running block `xo` plus the point's counts of its 8×8 boxes `x1`. -/
def upd64 (x1 : Vec F S8x2048x64 .f32) (xo : Vec F S8x64 .f32) : FVec F S8x64 .f32 :=
  k0_pay2 (k0_pay1 (k0_pay23 x1) (k0_pay24 x1) (k0_pay25 x1) (k0_pay27 (k0_pay23 x1) k0_pay26) (k0_pay28 (k0_pay23 x1)) (k0_pay29 (k0_pay23 x1)) (k0_pay30 (k0_pay23 x1)) (k0_pay31 (k0_pay23 x1)) (k0_pay32 (k0_pay23 x1)) (k0_pay33 (k0_pay23 x1)) (k0_pay35 (k0_pay34 (k0_pay23 x1))) (k0_pay36 (k0_pay23 x1)) (k0_pay37 (k0_pay23 x1)) (k0_pay38 (k0_pay23 x1)) (k0_pay39 (k0_pay23 x1)) (k0_pay40 (k0_pay23 x1)) (k0_pay41 (k0_pay23 x1)) (k0_pay42 (k0_pay23 x1)) (k0_pay44 (k0_pay23 x1) k0_pay43) (k0_pay45 (k0_pay23 x1)) (k0_pay46 (k0_pay23 x1)) (k0_pay47 (k0_pay23 x1)) (k0_pay48 (k0_pay23 x1)) (k0_pay49 (k0_pay23 x1)) (k0_pay50 (k0_pay23 x1)) (k0_pay52 (k0_pay51 (k0_pay23 x1))) (k0_pay53 (k0_pay23 x1)) (k0_pay54 (k0_pay23 x1)) (k0_pay55 (k0_pay23 x1)) (k0_pay56 (k0_pay23 x1)) (k0_pay57 (k0_pay23 x1)) (k0_pay58 (k0_pay23 x1)) (k0_pay59 (k0_pay23 x1)) (k0_pay61 (k0_pay23 x1) k0_pay60) (k0_pay62 (k0_pay23 x1)) (k0_pay63 (k0_pay23 x1)) (k0_pay64 (k0_pay23 x1)) (k0_pay65 (k0_pay23 x1)) (k0_pay66 (k0_pay23 x1)) (k0_pay67 (k0_pay23 x1)) (k0_pay69 (k0_pay68 (k0_pay23 x1))) (k0_pay70 (k0_pay23 x1)) (k0_pay71 (k0_pay23 x1)) (k0_pay72 (k0_pay23 x1)) (k0_pay73 (k0_pay23 x1)) (k0_pay74 (k0_pay23 x1)) (k0_pay75 (k0_pay23 x1)) (k0_pay76 (k0_pay23 x1)) (k0_pay78 (k0_pay23 x1) k0_pay77) (k0_pay79 (k0_pay23 x1)) (k0_pay80 (k0_pay23 x1)) (k0_pay81 (k0_pay23 x1)) (k0_pay82 (k0_pay23 x1)) (k0_pay83 (k0_pay23 x1)) (k0_pay84 (k0_pay23 x1)) (k0_pay86 (k0_pay85 (k0_pay23 x1))) (k0_pay87 (k0_pay23 x1)) (k0_pay88 (k0_pay23 x1)) (k0_pay89 (k0_pay23 x1)) (k0_pay90 (k0_pay23 x1)) (k0_pay91 (k0_pay23 x1)) (k0_pay92 (k0_pay23 x1)) (k0_pay93 (k0_pay23 x1)) (cmpi .eq (k0_pay23 x1) k0_pay94)) xo

theorem out_A2 (c : Dev nD) (i : grid0.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : cond0_0 i) (hc1 : ¬cond0_1 i)
    (x0 : Vec F S8x2048x16 .f32) (x1 : Vec F S8x2048x64 .f32) :
    out0_A_2 c i a2 h2 a3 h3 a4 h4 a5 h5 hc0 hc1 x0 x1 = upd16 x0 k0_pay5 := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S8x16) hz2, View.readCov_unit_zero (S := S8x16) _ hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_A3 (c : Dev nD) (i : grid0.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : cond0_0 i) (hc1 : ¬cond0_1 i)
    (x0 : Vec F S8x2048x16 .f32) (x1 : Vec F S8x2048x64 .f32) :
    out0_A_3 c i a2 h2 a3 h3 a4 h4 a5 h5 hc0 hc1 x0 x1 = upd64 x1 k0_pay6 := by
  unfold out0_A_3
  rw [View.read_writes_eq_canon _ _ _ (cover0_A_3 c i a2 h2 a3 h3 a4 h4 a5 h5 hc0 hc1 x0 x1)]
  unfold kernelRun0_A
  dsimp only
  sl_unfold_words
  rw [View.canon_cons_unit_zero (S := S8x64) hz2, View.readCov_unit_zero (S := S8x64) _ hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_B2 (c : Dev nD) (i : grid0.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : ¬cond0_0 i) (hc1 : ¬cond0_1 i)
    (x0 : Vec F S8x2048x16 .f32) (x1 : Vec F S8x2048x64 .f32) (xo2 : Vec F S8x16 .f32) (xo3 : Vec F S8x64 .f32) :
    out0_B_2 c i a2 h2 a3 h3 a4 h4 a5 h5 hc0 hc1 x0 x1 xo2 xo3 = upd16 x0 xo2 := by
  unfold out0_B_2
  rw [View.read_writes_eq_canon _ _ _ (cover0_B_2 c i a2 h2 a3 h3 a4 h4 a5 h5 hc0 hc1 x0 x1 xo2 xo3)]
  unfold kernelRun0_B
  dsimp only
  sl_unfold_words
  rw [View.canon_unit_zero hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_B3 (c : Dev nD) (i : grid0.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : ¬cond0_0 i) (hc1 : ¬cond0_1 i)
    (x0 : Vec F S8x2048x16 .f32) (x1 : Vec F S8x2048x64 .f32) (xo2 : Vec F S8x16 .f32) (xo3 : Vec F S8x64 .f32) :
    out0_B_3 c i a2 h2 a3 h3 a4 h4 a5 h5 hc0 hc1 x0 x1 xo2 xo3 = upd64 x1 xo3 := by
  unfold out0_B_3
  rw [View.read_writes_eq_canon _ _ _ (cover0_B_3 c i a2 h2 a3 h3 a4 h4 a5 h5 hc0 hc1 x0 x1 xo2 xo3)]
  unfold kernelRun0_B
  dsimp only
  sl_unfold_words
  rw [View.canon_unit_zero hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_C2 (c : Dev nD) (i : grid0.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : ¬cond0_0 i) (hc1 : cond0_1 i)
    (x0 : Vec F S8x2048x16 .f32) (x1 : Vec F S8x2048x64 .f32) (xo2 : Vec F S8x16 .f32) (xo3 : Vec F S8x64 .f32) :
    out0_C_2 c i a2 h2 a3 h3 a4 h4 a5 h5 hc0 hc1 x0 x1 xo2 xo3 = k0_pay3 (upd16 x0 xo2) := by
  unfold out0_C_2
  rw [View.read_writes_eq_canon _ _ _ (cover0_C_2 c i a2 h2 a3 h3 a4 h4 a5 h5 hc0 hc1 x0 x1 xo2 xo3)]
  unfold kernelRun0_C
  dsimp only
  sl_unfold_words
  rw [View.canon_cons_unit_zero (S := S8x16) hz2, View.readCov_unit_zero (S := S8x16) _ hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_C3 (c : Dev nD) (i : grid0.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : ¬cond0_0 i) (hc1 : cond0_1 i)
    (x0 : Vec F S8x2048x16 .f32) (x1 : Vec F S8x2048x64 .f32) (xo2 : Vec F S8x16 .f32) (xo3 : Vec F S8x64 .f32) :
    out0_C_3 c i a2 h2 a3 h3 a4 h4 a5 h5 hc0 hc1 x0 x1 xo2 xo3 = k0_pay4 (upd64 x1 xo3) := by
  unfold out0_C_3
  rw [View.read_writes_eq_canon _ _ _ (cover0_C_3 c i a2 h2 a3 h3 a4 h4 a5 h5 hc0 hc1 x0 x1 xo2 xo3)]
  unfold kernelRun0_C
  dsimp only
  sl_unfold_words
  rw [View.canon_cons_unit_zero (S := S8x64) hz2, View.readCov_unit_zero (S := S8x64) _ hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

end Cert.KernelIdeal.Hist0

end
-- ==== Proof.LibBinCount.lean ====
/-
  Counting with 0/1 words.

  A comparison of two 32-bit integers yields one bit; widened to 32 bits and read as a signed integer it is
  0 or 1.  This file relates the two ways a histogram bin is counted:

    * summing the widened bits as 32-bit integers (wrapping addition) and converting the total to a real, and
    * converting each widened bit to a real and summing the reals.

  As long as there are fewer than 2^31 summands the integer total cannot wrap, so both give the number of
  set bits.  Also here: a finite sum of real numbers embedded in the extended reals is the embedded sum, and a
  sum over `Fin (a * b)` split into `a` consecutive runs of length `b`.
-/
import Idealize.ShloMosaic.PureOps.Ideal.Laws
import Idealize.ShloMosaic.PureOps.Reduce

noncomputable section

namespace Cert.BinCount

open Idealize.ShloMosaic

/-- "The 32-bit integer `v` equals `c`" as the extended real 0 or 1: the comparison bit, widened to 32 bits,
    read as a signed integer, as a real. -/
def ind (v c : BitVec 32) : EReal := ((((IntOp.cmpi .eq v c).setWidth 32).toInt : ℝ) : EReal)

/-- A finite sum of reals, embedded in the extended reals term by term, is the embedded sum. -/
theorem coe_sum {ι : Type} (s : Finset ι) (f : ι → ℝ) :
    (∑ p ∈ s, ((f p : ℝ) : EReal)) = (((∑ p ∈ s, f p) : ℝ) : EReal) := by
  classical
  induction s using Finset.induction_on with
  | empty => simp
  | insert a s ha ih => rw [Finset.sum_insert ha, Finset.sum_insert ha, ih, EReal.coe_add]

/-- One bit widened to 32 bits, read signed, is the bit's value. -/
theorem toInt_setWidth_bit (b : BitVec 1) : (b.setWidth 32).toInt = (b.toNat : ℤ) := by
  rcases BitVec.eq_zero_or_eq_one b with h | h <;> subst h <;> decide

/-- One bit widened to 32 bits is the 32-bit word of the bit's value. -/
theorem setWidth_bit_eq_ofNat (b : BitVec 1) : b.setWidth 32 = BitVec.ofNat 32 b.toNat := by
  rcases BitVec.eq_zero_or_eq_one b with h | h <;> subst h <;> decide

/-- The wrapping 32-bit sum of widened bits is the 32-bit word of the number of set bits. -/
theorem fold_addi_bits {ι : Type} [DecidableEq ι] (s : Finset ι) (e : ι → BitVec 1) :
    s.fold IntOp.addi 0#32 (fun p => (e p).setWidth 32) = BitVec.ofNat 32 (∑ p ∈ s, (e p).toNat) := by
  induction s using Finset.induction_on with
  | empty => simp
  | insert a s ha ih =>
    rw [Finset.fold_insert ha, ih, Finset.sum_insert ha, setWidth_bit_eq_ofNat]
    show BitVec.ofNat 32 _ + BitVec.ofNat 32 _ = _
    rw [← BitVec.ofNat_add]

/-- With fewer than 2^31 summands the integer total does not wrap: converted to a real it is the sum of the
    bits converted one by one. -/
theorem coe_toInt_fold_addi_bits {N : Nat} (hN : N < 2 ^ 31) (e : Fin N → BitVec 1) :
    (((((Finset.univ : Finset (Fin N)).fold IntOp.addi 0#32 (fun p => (e p).setWidth 32)).toInt : ℤ) : ℝ) : EReal)
      = ∑ p : Fin N, (((((e p).setWidth 32).toInt : ℤ) : ℝ) : EReal) := by
  rw [fold_addi_bits, coe_sum]
  have hle : (∑ p : Fin N, (e p).toNat) ≤ N := by
    calc (∑ p : Fin N, (e p).toNat) ≤ ∑ _p : Fin N, 1 :=
          Finset.sum_le_sum (fun p _ => by have := (e p).isLt; omega)
      _ = N := by simp
  have h1 : (BitVec.ofNat 32 (∑ p : Fin N, (e p).toNat)).toInt = ((∑ p : Fin N, (e p).toNat : ℕ) : ℤ) := by
    have hlt : (∑ p : Fin N, (e p).toNat) < 2 ^ 31 := lt_of_le_of_lt hle hN
    rw [BitVec.toInt_eq_toNat_of_lt (by rw [BitVec.toNat_ofNat, Nat.mod_eq_of_lt (by omega)]; omega),
      BitVec.toNat_ofNat, Nat.mod_eq_of_lt (by omega)]
  rw [h1]
  congr 1
  push_cast
  exact Finset.sum_congr rfl fun p _ => by rw [toInt_setWidth_bit]; push_cast; rfl

/-- A sum over `Fin (a * b)` as `a` consecutive runs of length `b`. -/
theorem sum_runs {M : Type} [AddCommMonoid M] (a b : Nat) (f : Fin (a * b) → M) :
    ∑ p : Fin (a * b), f p
      = ∑ u ∈ Finset.range a, ∑ q : Fin b,
          (if h : u * b + q.val < a * b then f ⟨u * b + q.val, h⟩ else 0) := by
  rw [← Fin.sum_univ_eq_sum_range (fun u => ∑ q : Fin b, (if h : u * b + q.val < a * b then f ⟨u * b + q.val, h⟩ else 0)) a]
  rw [← Fintype.sum_prod_type']
  refine (Fintype.sum_equiv finProdFinEquiv.symm _ _ fun p => ?_)
  have hb : 0 < b := by
    rcases Nat.eq_zero_or_pos b with h | h
    · subst h; exact absurd p.isLt (by simp)
    · exact h
  have e : (finProdFinEquiv.symm p).1.val * b + (finProdFinEquiv.symm p).2.val = p.val := by
    simp [finProdFinEquiv, Fin.divNat, Fin.modNat]
    rw [Nat.mul_comm]; exact Nat.div_add_mod p.val b
  rw [dif_pos (by rw [e]; exact p.isLt)]
  exact congrArg f (Fin.ext e.symm)

end Cert.BinCount

end
-- ==== Proof.LibUnitAxes.lean ====
/-
  Unit axes added and dropped: general layout lemmas, in the style of the library's leading-unit-axis forms.
  A block of a rank-4 array is `[1, 1, a, b]`; viewed as the matrix `[a, b]` its entry `(p, c)` is the block's
  entry `(0, 0, p, c)`. A vector `[a]` kept as a column `[a, 1]` has, at `(p, 0)`, the vector's entry `p`.
  Both are the same row-major position on the two sides.
-/
import Idealize.ShloMosaic.Lib.Pipeline.Value
import Idealize.ShloMosaic.Lib.ValueIdx

namespace Cert.Layout

open Idealize.ShloMosaic Idealize.ShloMosaic.ValueIdx

/-- A `[1, 1, a, b]` block viewed as the matrix `[a, b]` reads, at `(p, c)`, the block's entry `(0, 0, p, c)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) := by
  refine shapeCast_apply x h (ix2 p c) (ix4 (0 : Fin 1) (0 : Fin 1) p c) ?_
  rw [Shape.rowMajor_val_four, Shape.rowMajor_val_two]
  show ((0 * 1 + 0) * a + p.val) * b + c.val = p.val * b + c.val
  simp

/-- A vector `[a]` kept as a column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  simp

end Cert.Layout
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.HistOps.lean ====
/-
  The histogram body's operations as functions, and what they are at one index over the extended reals.

  A box's popcount is the integer part of the sum of its entries (`pop16`, `pop64`).  For a bin `c`, the column
  `col P c` holds, for each of the 8 rows of a block, how many of the row's 2048 boxes have popcount `c`: the
  comparison bit, widened and converted to a float, summed along the row.  The columns of all bins side by side are
  the point's counts (`counts16`, `counts64`); `add16` / `add64` add them to the running block; `norm16` /
  `norm64` divide a block by the number of patches and then each row by its sum.
-/
import proofs.«177430_j31885837205965_2_alg».proof.Proof.Gen.KernelIdeal
import proofs.«177430_j31885837205965_2_alg».proof.Proof.LibBinCount
import proofs.«177430_j31885837205965_2_alg».proof.Proof.LibUnitAxes
import proofs.«177430_j31885837205965_2_alg».proof.Proof.LibColumnBroadcast
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.HistOps

open Cert.KernelIdeal Cert.BinCount

variable {F : FTy → Type} [FloatOps F]

/-- The number of patches, 32768, as the float literal both programs divide by. -/
abbrev patches : BitVec 32 := 0x47000000#32

/-- Popcounts of a block of 4×4 boxes (their 16 entries along the last axis). -/
def pop16 (x0 : Vec F S8x2048x16 .f32) : IVec S8x2048 32 :=
  fptosi 32 (multiReduction .add [2] S8x2048 (shapeCast S8x2048x16 x0 Facts₀.shapeCasts_S8x2048x16_S8x2048x16)
    0x00000000#32 Facts₀.reduces_S8x2048x16_S8x2048 (.inl rfl) rfl)

/-- Popcounts of a block of 8×8 boxes (their 64 entries along the last axis). -/
def pop64 (x1 : Vec F S8x2048x64 .f32) : IVec S8x2048 32 :=
  fptosi 32 (multiReduction .add [2] S8x2048 (shapeCast S8x2048x64 x1 Facts₀.shapeCasts_S8x2048x64_S8x2048x64)
    0x00000000#32 Facts₀.reduces_S8x2048x64_S8x2048 (.inl rfl) rfl)

/-- Bin `c`'s column: per row, the number of boxes of the row whose popcount is `c`. -/
def col (P : IVec S8x2048 32) (c : BitVec 32) : FVec F S8x1 .f32 :=
  shapeCast S8x1 (multiReduction .add [1] S8
    (sitofp .f32 (extui 32 (cmpi .eq P (broadcast S8x2048 c)) Facts₀.natLt_1_32))
    0x00000000#32 Facts₀.reduces_S8x2048_S8 (.inl rfl) rfl) Facts₀.shapeCasts_S8_S8x1

/-- The 16 bins' columns side by side. -/
def counts16 (P : IVec S8x2048 32) : FVec F S8x16 .f32 :=
  concatenate S8x16 1 (List.ofFn fun n : Fin 16 => (⟨S8x1, col P (BitVec.ofNat 32 n.val)⟩ : (s : Shape) × (s.Idx → F .f32)))
    Facts₀.concatenates_S8x1_S8x1_S8x1_S8x1_S8x1_S8x1_S8x1_S8x1_S8x1_S8x1_S8x1_S8x1_S8x1_S8x1_S8x1_S8x1_S8x16_d1

/-- The 64 bins' columns side by side. -/
def counts64 (P : IVec S8x2048 32) : FVec F S8x64 .f32 :=
  concatenate S8x64 1 (List.ofFn fun n : Fin 64 => (⟨S8x1, col P (BitVec.ofNat 32 n.val)⟩ : (s : Shape) × (s.Idx → F .f32)))
    Facts₀.concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x64_d1

/-- The running 16-bin block plus a point's counts. -/
def add16 (x0 : Vec F S8x2048x16 .f32) (xo : Vec F S8x16 .f32) : FVec F S8x16 .f32 :=
  addf (shapeCast S8x16 xo Facts₀.shapeCasts_S8x16_S8x16) (counts16 (pop16 x0))

/-- The running 64-bin block plus a point's counts. -/
def add64 (x1 : Vec F S8x2048x64 .f32) (xo : Vec F S8x64 .f32) : FVec F S8x64 .f32 :=
  addf (shapeCast S8x64 xo Facts₀.shapeCasts_S8x64_S8x64) (counts64 (pop64 x1))

/-- A 16-bin block divided by the number of patches, then each row by its sum. -/
def norm16 (v : Vec F S8x16 .f32) : FVec F S8x16 .f32 :=
  divf (divf (shapeCast S8x16 v Facts₀.shapeCasts_S8x16_S8x16) (broadcast S8x16 (Scalar.ofBits .f32 patches)))
    (broadcastTo S8x16 (shapeCast S8x1 (multiReduction .add [1] S8
      (divf (shapeCast S8x16 v Facts₀.shapeCasts_S8x16_S8x16) (broadcast S8x16 (Scalar.ofBits .f32 patches)))
      0x00000000#32 Facts₀.reduces_S8x16_S8 (.inl rfl) rfl) Facts₀.shapeCasts_S8_S8x1) Facts₀.broadcasts_S8x1_S8x16)

/-- A 64-bin block divided by the number of patches, then each row by its sum. -/
def norm64 (v : Vec F S8x64 .f32) : FVec F S8x64 .f32 :=
  divf (divf (shapeCast S8x64 v Facts₀.shapeCasts_S8x64_S8x64) (broadcast S8x64 (Scalar.ofBits .f32 patches)))
    (broadcastTo S8x64 (shapeCast S8x1 (multiReduction .add [1] S8
      (divf (shapeCast S8x64 v Facts₀.shapeCasts_S8x64_S8x64) (broadcast S8x64 (Scalar.ofBits .f32 patches)))
      0x00000000#32 Facts₀.reduces_S8x64_S8 (.inl rfl) rfl) Facts₀.shapeCasts_S8_S8x1) Facts₀.broadcasts_S8x1_S8x64)

/-! ## At one index, over the extended reals -/

/-- A bin's column at row `r`: the number of boxes of the row in that bin. -/
theorem col_apply (P : IVec S8x2048 32) (c : BitVec 32) (r : Fin 8) :
    col (F := Ideal) P c (ix2 r (0 : Fin 1)) = ∑ q : Fin 2048, ind (P (ix2 r q)) c := by
  unfold col
  refine (Cert.Layout.shapeCast_a_a1_apply _ _ r).trans ?_
  refine (Ideal.multiReduction_add_single _ 0x00000000#32 Facts₀.reduces_S8x2048_S8 (.inl rfl) rfl (ix1 r)).trans ?_
  refine Finset.sum_congr rfl fun q _ => ?_
  have e : Facts₀.reduces_S8x2048_S8.lift (ix1 r) q = ix2 r q :=
    funext fun a => Fin.ext (by match a with | ⟨0, _⟩ => rfl | ⟨1, _⟩ => rfl)
  rw [e]; rfl

/-- The 16 columns side by side, at (row, bin). -/
theorem counts16_apply (P : IVec S8x2048 32) (r : Fin 8) (j : Fin 16) :
    counts16 (F := Ideal) P (ix2 r j) = ∑ q : Fin 2048, ind (P (ix2 r q)) (BitVec.ofNat 32 j.val) := by
  unfold counts16
  refine (concatenate_ofFn_unit_apply (t := S8x16) (s₁ := S8x1) (1 : Fin 2) (fun n : Fin 16 => col (F := Ideal) P (BitVec.ofNat 32 n.val)) _
    rfl rfl (ix2 r j) j rfl (ix2 r (0 : Fin 1)) ?_).trans (col_apply P _ r)
  intro b hb
  match b with
  | ⟨0, _⟩ => rfl
  | ⟨1, _⟩ => exact absurd rfl hb

/-- The 64 columns side by side, at (row, bin). -/
theorem counts64_apply (P : IVec S8x2048 32) (r : Fin 8) (j : Fin 64) :
    counts64 (F := Ideal) P (ix2 r j) = ∑ q : Fin 2048, ind (P (ix2 r q)) (BitVec.ofNat 32 j.val) := by
  unfold counts64
  refine (concatenate_ofFn_unit_apply (t := S8x64) (s₁ := S8x1) (1 : Fin 2) (fun n : Fin 64 => col (F := Ideal) P (BitVec.ofNat 32 n.val)) _
    rfl rfl (ix2 r j) j rfl (ix2 r (0 : Fin 1)) ?_).trans (col_apply P _ r)
  intro b hb
  match b with
  | ⟨0, _⟩ => rfl
  | ⟨1, _⟩ => exact absurd rfl hb

/-- A 4×4 box's popcount: the integer part of the sum of its 16 entries. -/
theorem pop16_apply (x0 : Vec Ideal S8x2048x16 .f32) (r : Fin 8) (q : Fin 2048) :
    pop16 (F := Ideal) x0 (ix2 r q) = Ideal.fptosi 32 (∑ k : Fin 16, x0 (ix3 r q k)) := by
  unfold pop16
  show Ideal.fptosi 32 (multiReduction (F := Ideal) .add [2] S8x2048 _ 0x00000000#32 Facts₀.reduces_S8x2048x16_S8x2048 (.inl rfl) rfl (ix2 r q)) = _
  refine congrArg (Ideal.fptosi 32) ?_
  refine (Ideal.multiReduction_add_single _ 0x00000000#32 Facts₀.reduces_S8x2048x16_S8x2048 (.inl rfl) rfl (ix2 r q)).trans ?_
  refine Finset.sum_congr rfl fun k _ => ?_
  rw [shapeCast_self]
  exact congrArg x0 (funext fun a => Fin.ext (by match a with | ⟨0, _⟩ => rfl | ⟨1, _⟩ => rfl | ⟨2, _⟩ => rfl))

/-- An 8×8 box's popcount: the integer part of the sum of its 64 entries. -/
theorem pop64_apply (x1 : Vec Ideal S8x2048x64 .f32) (r : Fin 8) (q : Fin 2048) :
    pop64 (F := Ideal) x1 (ix2 r q) = Ideal.fptosi 32 (∑ k : Fin 64, x1 (ix3 r q k)) := by
  unfold pop64
  show Ideal.fptosi 32 (multiReduction (F := Ideal) .add [2] S8x2048 _ 0x00000000#32 Facts₀.reduces_S8x2048x64_S8x2048 (.inl rfl) rfl (ix2 r q)) = _
  refine congrArg (Ideal.fptosi 32) ?_
  refine (Ideal.multiReduction_add_single _ 0x00000000#32 Facts₀.reduces_S8x2048x64_S8x2048 (.inl rfl) rfl (ix2 r q)).trans ?_
  refine Finset.sum_congr rfl fun k _ => ?_
  rw [shapeCast_self]
  exact congrArg x1 (funext fun a => Fin.ext (by match a with | ⟨0, _⟩ => rfl | ⟨1, _⟩ => rfl | ⟨2, _⟩ => rfl))

/-- The updated 16-bin block at (row, bin). -/
theorem add16_apply (x0 : Vec Ideal S8x2048x16 .f32) (xo : Vec Ideal S8x16 .f32) (r : Fin 8) (j : Fin 16) :
    add16 (F := Ideal) x0 xo (ix2 r j)
      = xo (ix2 r j) + ∑ q : Fin 2048, ind (Ideal.fptosi 32 (∑ k : Fin 16, x0 (ix3 r q k))) (BitVec.ofNat 32 j.val) := by
  unfold add16
  show shapeCast S8x16 xo _ (ix2 r j) + counts16 (F := Ideal) (pop16 x0) (ix2 r j) = _
  rw [shapeCast_self, counts16_apply]
  exact congrArg (xo (ix2 r j) + ·) (Finset.sum_congr rfl fun q _ => by rw [pop16_apply])

/-- The updated 64-bin block at (row, bin). -/
theorem add64_apply (x1 : Vec Ideal S8x2048x64 .f32) (xo : Vec Ideal S8x64 .f32) (r : Fin 8) (j : Fin 64) :
    add64 (F := Ideal) x1 xo (ix2 r j)
      = xo (ix2 r j) + ∑ q : Fin 2048, ind (Ideal.fptosi 32 (∑ k : Fin 64, x1 (ix3 r q k))) (BitVec.ofNat 32 j.val) := by
  unfold add64
  show shapeCast S8x64 xo _ (ix2 r j) + counts64 (F := Ideal) (pop64 x1) (ix2 r j) = _
  rw [shapeCast_self, counts64_apply]
  exact congrArg (xo (ix2 r j) + ·) (Finset.sum_congr rfl fun q _ => by rw [pop64_apply])

/-- The normalized 16-bin block at (row, bin). -/
theorem norm16_apply (v : Vec Ideal S8x16 .f32) (r : Fin 8) (j : Fin 16) :
    norm16 (F := Ideal) v (ix2 r j)
      = Ideal.div (Ideal.div (v (ix2 r j)) (Ideal.ofBits .f32 patches))
          (∑ k : Fin 16, Ideal.div (v (ix2 r k)) (Ideal.ofBits .f32 patches)) := by
  unfold norm16
  rw [shapeCast_self]
  show Ideal.div (Ideal.div (v (ix2 r j)) (Ideal.ofBits .f32 patches)) (broadcastTo S8x16 _ Facts₀.broadcasts_S8x1_S8x16 (ix2 r j)) = _
  refine congrArg (Ideal.div _) ?_
  refine (Cert.Layout.broadcastTo_a1_ab_apply _ _ r j).trans ?_
  refine (Cert.Layout.shapeCast_a_a1_apply _ _ r).trans ?_
  refine (Ideal.multiReduction_add_single _ 0x00000000#32 Facts₀.reduces_S8x16_S8 (.inl rfl) rfl (ix1 r)).trans ?_
  refine Finset.sum_congr rfl fun k _ => ?_
  have e : Facts₀.reduces_S8x16_S8.lift (ix1 r) k = ix2 r k :=
    funext fun a => Fin.ext (by match a with | ⟨0, _⟩ => rfl | ⟨1, _⟩ => rfl)
  rw [e]; rfl

/-- The normalized 64-bin block at (row, bin). -/
theorem norm64_apply (v : Vec Ideal S8x64 .f32) (r : Fin 8) (j : Fin 64) :
    norm64 (F := Ideal) v (ix2 r j)
      = Ideal.div (Ideal.div (v (ix2 r j)) (Ideal.ofBits .f32 patches))
          (∑ k : Fin 64, Ideal.div (v (ix2 r k)) (Ideal.ofBits .f32 patches)) := by
  unfold norm64
  rw [shapeCast_self]
  show Ideal.div (Ideal.div (v (ix2 r j)) (Ideal.ofBits .f32 patches)) (broadcastTo S8x64 _ Facts₀.broadcasts_S8x1_S8x64 (ix2 r j)) = _
  refine congrArg (Ideal.div _) ?_
  refine (Cert.Layout.broadcastTo_a1_ab_apply _ _ r j).trans ?_
  refine (Cert.Layout.shapeCast_a_a1_apply _ _ r).trans ?_
  refine (Ideal.multiReduction_add_single _ 0x00000000#32 Facts₀.reduces_S8x64_S8 (.inl rfl) rfl (ix1 r)).trans ?_
  refine Finset.sum_congr rfl fun k _ => ?_
  have e : Facts₀.reduces_S8x64_S8.lift (ix1 r) k = ix2 r k :=
    funext fun a => Fin.ext (by match a with | ⟨0, _⟩ => rfl | ⟨1, _⟩ => rfl)
  rw [e]; rfl

end Cert.KernelIdeal.HistOps

end
-- ==== Proof.HistSpec.lean ====
/-
  The normalised popcount histogram, as one function of an array of flattened boxes.

  `A` is an array [16, 32768, n]: 16 rows of 32768 boxes of n entries.  A box's popcount is the integer part of
  the sum of its entries.  For row `b` and bin `j`, `cntN A b j N` counts the boxes among the first `N` of
  the row whose popcount is `j`; the histogram entry divides the full count by the number of patches and then by
  the sum over the row's `n` bins of the same quotients.  Rows and boxes are named by natural numbers (out of range:
  popcount 0) so that statements about "the first N boxes" and "row 8·β + r" need no bound proofs.
-/
import proofs.«177430_j31885837205965_2_alg».proof.Proof.LibBinCount
import Idealize.ShloMosaic.Lib.ValueIdx

noncomputable section

open Idealize.ShloMosaic Idealize.ShloMosaic.ValueIdx

namespace Cert.HistSpec

open Cert.BinCount

/-- The number of patches, 32768, as the float literal both programs divide by. -/
abbrev patches : BitVec 32 := 0x47000000#32

/-- The popcount of box `p` of row `b`. -/
def popN {n : ℕ} (A : (⟨3, ![16, 32768, n]⟩ : Shape).Idx → EReal) (b p : ℕ) : BitVec 32 :=
  if h : b < 16 ∧ p < 32768 then Ideal.fptosi 32 (∑ k : Fin n, A (ix3 ⟨b, h.1⟩ ⟨p, h.2⟩ k)) else 0#32

/-- How many of the first `N` boxes of row `b` have popcount `j`. -/
def cntN {n : ℕ} (A : (⟨3, ![16, 32768, n]⟩ : Shape).Idx → EReal) (b j N : ℕ) : EReal :=
  ∑ p ∈ Finset.range N, ind (popN A b p) (BitVec.ofNat 32 j)

/-- The histogram entry of row `b`, bin `j`. -/
def hist {n : ℕ} (A : (⟨3, ![16, 32768, n]⟩ : Shape).Idx → EReal) (b j : ℕ) : EReal :=
  Ideal.div (Ideal.div (cntN A b j 32768) (Ideal.ofBits .f32 patches))
    (∑ k : Fin n, Ideal.div (cntN A b k.val 32768) (Ideal.ofBits .f32 patches))

/-- Counting 2048 more boxes: the count over the first `2048·(u+1)` is the count over the first `2048·u` plus
    the count over the next 2048. -/
theorem cntN_step {n : ℕ} (A : (⟨3, ![16, 32768, n]⟩ : Shape).Idx → EReal) (b j u : ℕ) :
    cntN A b j (2048 * (u + 1))
      = cntN A b j (2048 * u) + ∑ x ∈ Finset.range 2048, ind (popN A b (2048 * u + x)) (BitVec.ofNat 32 j) := by
  unfold cntN
  rw [show 2048 * (u + 1) = 2048 * u + 2048 from by ring, Finset.sum_range_add]

theorem cntN_zero {n : ℕ} (A : (⟨3, ![16, 32768, n]⟩ : Shape).Idx → EReal) (b j : ℕ) : cntN A b j (2048 * 0) = 0 := by
  unfold cntN; simp

end Cert.HistSpec

end
-- ==== Proof.K0Accum.lean ====
/-
  What the two histogram blocks hold after each grid point of region 0, by induction on the point.

  The grid is 2 row blocks × 16 box blocks, the box block moving fastest: point t works on rows 8·(t/16) … 8·(t/16)+7
  and boxes 2048·(t%16) … 2048·(t%16)+2047.  After point t with t%16 < 15 the running blocks hold, for each of the 8
  rows and each bin, the number of boxes among the row's first 2048·(t%16 + 1) whose popcount is the bin; after the
  last point of a row block (t%16 = 15) they hold the normalised histogram of those 8 rows.
-/
import proofs.«177430_j31885837205965_2_alg».proof.Proof.K0Payload
import proofs.«177430_j31885837205965_2_alg».proof.Proof.HistOps
import proofs.«177430_j31885837205965_2_alg».proof.Proof.HistSpec

noncomputable section

open Idealize.ShloMosaic Idealize.ShloMosaic.TcCoe Idealize.SL.Sem Idealize.ShloMosaic.ValueIdx

namespace Cert.KernelIdeal.Hist0

open Cert.KernelIdeal Cert.KernelIdeal.Gen Cert.KernelIdeal.HistOps Cert.HistSpec Cert.BinCount

/-! ## The body's composites are the histogram operations (any float instance) -/

section
variable {F : FTy → Type} [FloatOps F]
theorem upd16_eq (x0 : Vec F S8x2048x16 .f32) (xo : Vec F S8x16 .f32) : upd16 x0 xo = add16 x0 xo := rfl
theorem upd64_eq (x1 : Vec F S8x2048x64 .f32) (xo : Vec F S8x64 .f32) : upd64 x1 xo = add64 x1 xo := rfl
theorem pay3_eq (v : Vec F S8x16 .f32) : k0_pay3 v = norm16 v := rfl
theorem pay4_eq (v : Vec F S8x64 .f32) : k0_pay4 v = norm64 v := rfl
end

/-! ## At the extended reals, from the region's entry contents `V` -/

variable (V : (c : Dev nD) → (b : Ref sig .tc) → Buf (Elt Ideal) ((c : Thread nD τ).loc b))

/-- The array of flattened 4×4 boxes the region reads. -/
abbrev A0 (c : Dev nD) : (⟨3, ![16, 32768, 16]⟩ : Shape).Idx → EReal := V c main_v0
/-- The array of flattened 8×8 boxes the region reads. -/
abbrev A1 (c : Dev nD) : (⟨3, ![16, 32768, 64]⟩ : Shape).Idx → EReal := V c main_v1

/-- The printed index maps over the grid: the input blocks follow (t/16, t%16), the output blocks t/16. -/
theorem idx_facts : ∀ t : Fin cfg0.N, win0_0.index t (0 : Fin 3) = t.val / 16 ∧ win0_0.index t (1 : Fin 3) = t.val % 16
    ∧ win0_0.index t (2 : Fin 3) = 0 ∧ win0_1.index t (0 : Fin 3) = t.val / 16 ∧ win0_1.index t (1 : Fin 3) = t.val % 16
    ∧ win0_1.index t (2 : Fin 3) = 0 ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, _)

/-- Input window 0's block at point `t`: entry (r, q, k) is the array's entry at row 8·(t/16) + r, box 2048·(t%16) + q. -/
theorem iblk_0_apply (c : Dev nD) (t : Fin cfg0.N) (r : Fin 8) (q : Fin 2048) (k : Fin 16)
    (hb : 8 * (t.val / 16) + r.val < 16) (hp : 2048 * (t.val % 16) + q.val < 32768) :
    (iblk0 V c 0 t : Vec Ideal S8x2048x16 .f32) (ix3 r q k) = A0 V c (ix3 ⟨_, hb⟩ ⟨_, hp⟩ k) := by
  obtain ⟨e0, e1, e2, e3, e4, e5, -⟩ := idx_facts t
  unfold iblk0
  rw [View.read_apply]
  show V c main_v0 (((cfg0.win 0).blk t).view.emb (ix3 r q k)) = V c main_v0 _
  refine congrArg (V c main_v0) (funext fun a => Fin.ext ?_)
  match a with
  | ⟨0, _⟩ => show win0_0.index t (0 : Fin 3) * 8 + 1 * r.val = 8 * (t.val / 16) + r.val; rw [e0]; omega
  | ⟨1, _⟩ => show win0_0.index t (1 : Fin 3) * 2048 + 1 * q.val = 2048 * (t.val % 16) + q.val; rw [e1]; omega
  | ⟨2, _⟩ => show win0_0.index t (2 : Fin 3) * 16 + 1 * k.val = k.val; rw [e2]; omega

/-- The point's count of one (row, bin), as a count over the row's boxes 2048·(t%16) … 2048·(t%16) + 2047. -/
theorem blk16 (c : Dev nD) (t : Fin cfg0.N) (r : Fin 8) (j : ℕ) :
    ∑ q : Fin 2048, ind (Ideal.fptosi 32 (∑ k : Fin 16, (iblk0 V c 0 t : Vec Ideal S8x2048x16 .f32) (ix3 r q k))) (BitVec.ofNat 32 j)
      = ∑ x ∈ Finset.range 2048, ind (popN (A0 V c) (8 * (t.val / 16) + r.val) (2048 * (t.val % 16) + x)) (BitVec.ofNat 32 j) := by
  have hN : t.val < 32 := lt_of_lt_of_eq t.isLt (show cfg0.N = 32 from N_0)
  rw [Finset.sum_range]
  refine Finset.sum_congr rfl fun q _ => ?_
  have hb : 8 * (t.val / 16) + r.val < 16 := by have := r.isLt; omega
  have hp : 2048 * (t.val % 16) + q.val < 32768 := by have := q.isLt; omega
  unfold popN
  rw [dif_pos ⟨hb, hp⟩]
  refine congrArg (fun s => ind (Ideal.fptosi 32 s) (BitVec.ofNat 32 j)) (Finset.sum_congr rfl fun k _ => ?_)
  exact iblk_0_apply V c t r q k hb hp

/-- One point's update: if the running block holds the counts over the row's first 2048·(t%16) boxes, the updated
    block holds the counts over the first 2048·(t%16 + 1). -/
theorem step16 (c : Dev nD) (t : Fin cfg0.N) (xo : Vec Ideal S8x16 .f32)
    (hxo : ∀ (r : Fin 8) (j : Fin 16), xo (ix2 r j) = cntN (A0 V c) (8 * (t.val / 16) + r.val) j.val (2048 * (t.val % 16)))
    (r : Fin 8) (j : Fin 16) :
    add16 (F := Ideal) (iblk0 V c 0 t) xo (ix2 r j)
      = cntN (A0 V c) (8 * (t.val / 16) + r.val) j.val (2048 * (t.val % 16 + 1)) := by
  rw [add16_apply, hxo, blk16 V c t r j.val, cntN_step]

/-- The last point of a row block: the updated block, normalised, is the histogram of the block's rows. -/
theorem fin16 (c : Dev nD) (t : Fin cfg0.N) (h15 : t.val % 16 = 15) (xo : Vec Ideal S8x16 .f32)
    (hxo : ∀ (r : Fin 8) (j : Fin 16), xo (ix2 r j) = cntN (A0 V c) (8 * (t.val / 16) + r.val) j.val (2048 * (t.val % 16))) :
    norm16 (F := Ideal) (add16 (F := Ideal) (iblk0 V c 0 t) xo)
      = fun i => hist (A0 V c) (8 * (t.val / 16) + (i 0).val) (i 1).val := by
  funext i
  obtain ⟨r, j, rfl⟩ : ∃ (r : Fin 8) (j : Fin 16), i = ix2 r j := ⟨i 0, i 1, eq_ix2 i⟩
  have e : ∀ k : Fin 16, add16 (F := Ideal) (iblk0 V c 0 t) xo (ix2 r k)
      = cntN (A0 V c) (8 * (t.val / 16) + r.val) k.val 32768 := fun k => by
    rw [step16 V c t xo hxo r k, h15]
  rw [norm16_apply, e j]
  unfold hist
  exact congrArg (Ideal.div _) (Finset.sum_congr rfl fun k _ => by rw [e k])

/-- The zero block is the count over no boxes. -/
theorem zero16 (c : Dev nD) (b : ℕ) (r : Fin 8) (j : Fin 16) :
    (k0_pay5 (F := Ideal) : FVec Ideal S8x16 .f32) (ix2 r j) = cntN (A0 V c) b j.val (2048 * 0) := by
  rw [cntN_zero]
  show Ideal.ofBits .f32 0x00000000#32 = 0
  exact Ideal.ofBits_zero_f32

/-- Input window 1's block at point `t`: entry (r, q, k) is the array's entry at row 8·(t/16) + r, box 2048·(t%16) + q. -/
theorem iblk_1_apply (c : Dev nD) (t : Fin cfg0.N) (r : Fin 8) (q : Fin 2048) (k : Fin 64)
    (hb : 8 * (t.val / 16) + r.val < 16) (hp : 2048 * (t.val % 16) + q.val < 32768) :
    (iblk0 V c 1 t : Vec Ideal S8x2048x64 .f32) (ix3 r q k) = A1 V c (ix3 ⟨_, hb⟩ ⟨_, hp⟩ k) := by
  obtain ⟨e0, e1, e2, e3, e4, e5, -⟩ := idx_facts t
  unfold iblk0
  rw [View.read_apply]
  show V c main_v1 (((cfg0.win 1).blk t).view.emb (ix3 r q k)) = V c main_v1 _
  refine congrArg (V c main_v1) (funext fun a => Fin.ext ?_)
  match a with
  | ⟨0, _⟩ => show win0_1.index t (0 : Fin 3) * 8 + 1 * r.val = 8 * (t.val / 16) + r.val; rw [e3]; omega
  | ⟨1, _⟩ => show win0_1.index t (1 : Fin 3) * 2048 + 1 * q.val = 2048 * (t.val % 16) + q.val; rw [e4]; omega
  | ⟨2, _⟩ => show win0_1.index t (2 : Fin 3) * 64 + 1 * k.val = k.val; rw [e5]; omega

/-- The point's count of one (row, bin), as a count over the row's boxes 2048·(t%16) … 2048·(t%16) + 2047. -/
theorem blk64 (c : Dev nD) (t : Fin cfg0.N) (r : Fin 8) (j : ℕ) :
    ∑ q : Fin 2048, ind (Ideal.fptosi 32 (∑ k : Fin 64, (iblk0 V c 1 t : Vec Ideal S8x2048x64 .f32) (ix3 r q k))) (BitVec.ofNat 32 j)
      = ∑ x ∈ Finset.range 2048, ind (popN (A1 V c) (8 * (t.val / 16) + r.val) (2048 * (t.val % 16) + x)) (BitVec.ofNat 32 j) := by
  have hN : t.val < 32 := lt_of_lt_of_eq t.isLt (show cfg0.N = 32 from N_0)
  rw [Finset.sum_range]
  refine Finset.sum_congr rfl fun q _ => ?_
  have hb : 8 * (t.val / 16) + r.val < 16 := by have := r.isLt; omega
  have hp : 2048 * (t.val % 16) + q.val < 32768 := by have := q.isLt; omega
  unfold popN
  rw [dif_pos ⟨hb, hp⟩]
  refine congrArg (fun s => ind (Ideal.fptosi 32 s) (BitVec.ofNat 32 j)) (Finset.sum_congr rfl fun k _ => ?_)
  exact iblk_1_apply V c t r q k hb hp

/-- One point's update: if the running block holds the counts over the row's first 2048·(t%16) boxes, the updated
    block holds the counts over the first 2048·(t%16 + 1). -/
theorem step64 (c : Dev nD) (t : Fin cfg0.N) (xo : Vec Ideal S8x64 .f32)
    (hxo : ∀ (r : Fin 8) (j : Fin 64), xo (ix2 r j) = cntN (A1 V c) (8 * (t.val / 16) + r.val) j.val (2048 * (t.val % 16)))
    (r : Fin 8) (j : Fin 64) :
    add64 (F := Ideal) (iblk0 V c 1 t) xo (ix2 r j)
      = cntN (A1 V c) (8 * (t.val / 16) + r.val) j.val (2048 * (t.val % 16 + 1)) := by
  rw [add64_apply, hxo, blk64 V c t r j.val, cntN_step]

/-- The last point of a row block: the updated block, normalised, is the histogram of the block's rows. -/
theorem fin64 (c : Dev nD) (t : Fin cfg0.N) (h15 : t.val % 16 = 15) (xo : Vec Ideal S8x64 .f32)
    (hxo : ∀ (r : Fin 8) (j : Fin 64), xo (ix2 r j) = cntN (A1 V c) (8 * (t.val / 16) + r.val) j.val (2048 * (t.val % 16))) :
    norm64 (F := Ideal) (add64 (F := Ideal) (iblk0 V c 1 t) xo)
      = fun i => hist (A1 V c) (8 * (t.val / 16) + (i 0).val) (i 1).val := by
  funext i
  obtain ⟨r, j, rfl⟩ : ∃ (r : Fin 8) (j : Fin 64), i = ix2 r j := ⟨i 0, i 1, eq_ix2 i⟩
  have e : ∀ k : Fin 64, add64 (F := Ideal) (iblk0 V c 1 t) xo (ix2 r k)
      = cntN (A1 V c) (8 * (t.val / 16) + r.val) k.val 32768 := fun k => by
    rw [step64 V c t xo hxo r k, h15]
  rw [norm64_apply, e j]
  unfold hist
  exact congrArg (Ideal.div _) (Finset.sum_congr rfl fun k _ => by rw [e k])

/-- The zero block is the count over no boxes. -/
theorem zero64 (c : Dev nD) (b : ℕ) (r : Fin 8) (j : Fin 64) :
    (k0_pay6 (F := Ideal) : FVec Ideal S8x64 .f32) (ix2 r j) = cntN (A1 V c) b j.val (2048 * 0) := by
  rw [cntN_zero]
  show Ideal.ofBits .f32 0x00000000#32 = 0
  exact Ideal.ofBits_zero_f32

/-- What the blocks hold after point `n`. -/
def Inv (c : Dev nD) (n : ℕ) (h : n < cfg0.N) : Prop :=
  (n % 16 ≠ 15 →
      (∀ (r : Fin 8) (j : Fin 16), (outsAt0 V c n h).1 (ix2 r j) = cntN (A0 V c) (8 * (n / 16) + r.val) j.val (2048 * (n % 16 + 1)))
      ∧ (∀ (r : Fin 8) (j : Fin 64), (outsAt0 V c n h).2 (ix2 r j) = cntN (A1 V c) (8 * (n / 16) + r.val) j.val (2048 * (n % 16 + 1))))
  ∧ (n % 16 = 15 →
      (outsAt0 V c n h).1 = (fun i => hist (A0 V c) (8 * (n / 16) + (i 0).val) (i 1).val)
      ∧ (outsAt0 V c n h).2 = (fun i => hist (A1 V c) (8 * (n / 16) + (i 0).val) (i 1).val))

theorem inv (c : Dev nD) : ∀ (n : ℕ) (h : n < cfg0.N), Inv V c n h
  | 0, h => by
    unfold Inv
    refine ⟨fun _ => ?_, fun h15 => absurd h15 (by decide)⟩
    rw [outsAt0_A V c ⟨0, h⟩ rfl (by show ¬ (0 : ℕ) % 16 = 15; decide)]
    dsimp only
    rw [out_A2, out_A3, upd16_eq, upd64_eq]
    exact ⟨step16 V c ⟨0, h⟩ _ (fun r j => zero16 V c _ r j), step64 V c ⟨0, h⟩ _ (fun r j => zero64 V c _ r j)⟩
  | n + 1, h => by
    have ih := inv c n (Nat.lt_of_succ_lt h)
    unfold Inv at ih ⊢
    have hN : n + 1 < 32 := lt_of_lt_of_eq h (show cfg0.N = 32 from N_0)
    by_cases h0 : (n + 1) % 16 = 0
    · have h1 : ¬ (n + 1) % 16 = 15 := by omega
      refine ⟨fun _ => ?_, fun h15 => absurd h15 h1⟩
      rw [outsAt0_A V c ⟨n + 1, h⟩ h0 h1]
      dsimp only
      rw [out_A2, out_A3, upd16_eq, upd64_eq]
      refine ⟨step16 V c ⟨n + 1, h⟩ _ (fun r j => ?_), step64 V c ⟨n + 1, h⟩ _ (fun r j => ?_)⟩
      · show _ = cntN _ _ _ (2048 * ((n + 1) % 16)); rw [h0]; exact zero16 V c _ r j
      · show _ = cntN _ _ _ (2048 * ((n + 1) % 16)); rw [h0]; exact zero64 V c _ r j
    · have e1 : n / 16 = (n + 1) / 16 := by omega
      have e2 : n % 16 + 1 = (n + 1) % 16 := by omega
      have hn15 : n % 16 ≠ 15 := by omega
      obtain ⟨ih16, ih64⟩ := ih.1 hn15
      have hx16 : ∀ (r : Fin 8) (j : Fin 16), (outsAt0 V c n (Nat.lt_of_succ_lt h)).1 (ix2 r j)
          = cntN (A0 V c) (8 * ((n + 1) / 16) + r.val) j.val (2048 * ((n + 1) % 16)) := fun r j => by
        rw [← e1, ← e2]; exact ih16 r j
      have hx64 : ∀ (r : Fin 8) (j : Fin 64), (outsAt0 V c n (Nat.lt_of_succ_lt h)).2 (ix2 r j)
          = cntN (A1 V c) (8 * ((n + 1) / 16) + r.val) j.val (2048 * ((n + 1) % 16)) := fun r j => by
        rw [← e1, ← e2]; exact ih64 r j
      by_cases h1 : (n + 1) % 16 = 15
      · refine ⟨fun hne => absurd h1 hne, fun _ => ?_⟩
        rw [outsAt0_C V c ⟨n + 1, h⟩ h0 h1]
        dsimp only
        rw [out_C2, out_C3, upd16_eq, upd64_eq, pay3_eq, pay4_eq]
        exact ⟨fin16 V c ⟨n + 1, h⟩ h1 _ hx16, fin64 V c ⟨n + 1, h⟩ h1 _ hx64⟩
      · refine ⟨fun _ => ?_, fun h15 => absurd h15 h1⟩
        rw [outsAt0_B V c ⟨n + 1, h⟩ h0 h1]
        dsimp only
        rw [out_B2, out_B3, upd16_eq, upd64_eq]
        exact ⟨step16 V c ⟨n + 1, h⟩ _ hx16, step64 V c ⟨n + 1, h⟩ _ hx64⟩

end Cert.KernelIdeal.Hist0

end
-- ==== Proof.K0Final.lean ====
/-
  Region 0's two result arrays after the region: every 8-row block is written once, by the last point of its
  row block, with the normalised histogram of its rows; the blocks tile the arrays.
-/
import proofs.«177430_j31885837205965_2_alg».proof.Proof.K0Accum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hist0

open Cert.KernelIdeal Cert.KernelIdeal.Gen Cert.KernelIdeal.HistOps Cert.HistSpec Cert.BinCount

variable (V : (c : Dev nD) → (b : Ref sig .tc) → Buf (Elt Ideal) ((c : Thread nD τ).loc b))

/-- Output window 2's array after the region: the histogram of every row. -/
def R16 (c : Dev nD) : (⟨2, ![16, 16]⟩ : Shape).Idx → EReal := fun i => hist (A0 V c) (i 0).val (i 1).val

/-- What a writing point (the last of its row block) writes back is its block of the histogram array. -/
theorem flushed2_eq (c : Dev nD) (t : Fin cfg0.N) (hf : (cfg0.win 2).flush t = true) :
    (dat0 V c).flushed 2 t = ((cfg0.win 2).blk t).view.read (Elt Ideal) (R16 V c) := by
  have h15 : t.val % 16 = 15 := (flush0_2 t).mp hf
  obtain ⟨-, -, -, -, -, -, e6, e7, e8, e9⟩ := idx_facts t
  show (cfg0.win 2).cut (grid0.coords t) ((dat0 V c).after 2 t) = _
  rw [after0_2, ((inv V c t.val t.isLt).2 h15).1]
  funext j
  show hist (A0 V c) (8 * (t.val / 16) + (j 0).val) (j 1).val = R16 V c (((cfg0.win 2).blk t).view.emb j)
  unfold R16
  have ha : ((((cfg0.win 2).blk t).view.emb j) 0).val = 8 * (t.val / 16) + (j 0).val := by
    show win0_2.index t (0 : Fin 2) * 8 + 1 * (j 0).val = _; rw [e6]; omega
  have hb : ((((cfg0.win 2).blk t).view.emb j) 1).val = (j 1).val := by
    show win0_2.index t (1 : Fin 2) * 16 + 1 * (j 1).val = _; rw [e7]; omega
  rw [ha, hb]

/-- An index of the array is in point `t`'s block iff each coordinate is in the block's range on its axis. -/
theorem mem_blk2 (t : Fin cfg0.N) (i : S16x16.Idx) :
    i ∈ ((cfg0.win 2).blk t).view.set ↔ ∀ a : Fin 2, win0_2.index t a * S8x16.size a ≤ (i a).val ∧ (i a).val < win0_2.index t a * S8x16.size a + S8x16.size a := by
  show i ∈ ((View.whole main_v2_0).slice (win0_2.rect t)).set ↔ _
  rw [View.set_slice_whole, Rect.mem_set_unit]
  exact Iff.rfl

/-- Every row of the array lies in the block written by the last point of its row block. -/
theorem cover2 (i : S16x16.Idx) : ∃ t : Fin cfg0.N, (cfg0.win 2).flush t = true ∧ i ∈ ((cfg0.win 2).blk t).view.set := by
  have hi0 : (i 0).val < 16 := (i 0).isLt
  have hi1 : (i 1).val < 16 := (i 1).isLt
  have hN : cfg0.N = 32 := N_0
  have hlt : 16 * ((i 0).val / 8) + 15 < cfg0.N := by rw [hN]; omega
  obtain ⟨-, -, -, -, -, -, e6, e7, e8, e9⟩ := idx_facts (⟨16 * ((i 0).val / 8) + 15, hlt⟩ : Fin cfg0.N)
  refine ⟨⟨16 * ((i 0).val / 8) + 15, hlt⟩, (flush0_2 _).mpr (by show (16 * ((i 0).val / 8) + 15) % 16 = 15; omega), ?_⟩
  rw [mem_blk2]
  intro a
  match a with
  | ⟨0, _⟩ =>
    show win0_2.index _ (0 : Fin 2) * 8 ≤ (i 0).val ∧ (i 0).val < win0_2.index _ (0 : Fin 2) * 8 + 8
    rw [e6]
    show (16 * ((i 0).val / 8) + 15) / 16 * 8 ≤ (i 0).val ∧ (i 0).val < (16 * ((i 0).val / 8) + 15) / 16 * 8 + 8
    omega
  | ⟨1, _⟩ =>
    show win0_2.index _ (1 : Fin 2) * 16 ≤ (i 1).val ∧ (i 1).val < win0_2.index _ (1 : Fin 2) * 16 + 16
    rw [e7]
    omega

/-- So the array ends holding the histogram. -/
theorem final2 (c : Dev nD) : (dat0 V c).arrAt 2 cfg0.N = R16 V c :=
  (dat0 V c).arrAt_eq_of_cover 2 (R16 V c) (flushed2_eq V c) cover2

/-- Output window 3's array after the region: the histogram of every row. -/
def R64 (c : Dev nD) : (⟨2, ![16, 64]⟩ : Shape).Idx → EReal := fun i => hist (A1 V c) (i 0).val (i 1).val

/-- What a writing point (the last of its row block) writes back is its block of the histogram array. -/
theorem flushed3_eq (c : Dev nD) (t : Fin cfg0.N) (hf : (cfg0.win 3).flush t = true) :
    (dat0 V c).flushed 3 t = ((cfg0.win 3).blk t).view.read (Elt Ideal) (R64 V c) := by
  have h15 : t.val % 16 = 15 := (flush0_3 t).mp hf
  obtain ⟨-, -, -, -, -, -, e6, e7, e8, e9⟩ := idx_facts t
  show (cfg0.win 3).cut (grid0.coords t) ((dat0 V c).after 3 t) = _
  rw [after0_3, ((inv V c t.val t.isLt).2 h15).2]
  funext j
  show hist (A1 V c) (8 * (t.val / 16) + (j 0).val) (j 1).val = R64 V c (((cfg0.win 3).blk t).view.emb j)
  unfold R64
  have ha : ((((cfg0.win 3).blk t).view.emb j) 0).val = 8 * (t.val / 16) + (j 0).val := by
    show win0_3.index t (0 : Fin 2) * 8 + 1 * (j 0).val = _; rw [e8]; omega
  have hb : ((((cfg0.win 3).blk t).view.emb j) 1).val = (j 1).val := by
    show win0_3.index t (1 : Fin 2) * 64 + 1 * (j 1).val = _; rw [e9]; omega
  rw [ha, hb]

/-- An index of the array is in point `t`'s block iff each coordinate is in the block's range on its axis. -/
theorem mem_blk3 (t : Fin cfg0.N) (i : S16x64.Idx) :
    i ∈ ((cfg0.win 3).blk t).view.set ↔ ∀ a : Fin 2, win0_3.index t a * S8x64.size a ≤ (i a).val ∧ (i a).val < win0_3.index t a * S8x64.size a + S8x64.size a := by
  show i ∈ ((View.whole main_v2_1).slice (win0_3.rect t)).set ↔ _
  rw [View.set_slice_whole, Rect.mem_set_unit]
  exact Iff.rfl

/-- Every row of the array lies in the block written by the last point of its row block. -/
theorem cover3 (i : S16x64.Idx) : ∃ t : Fin cfg0.N, (cfg0.win 3).flush t = true ∧ i ∈ ((cfg0.win 3).blk t).view.set := by
  have hi0 : (i 0).val < 16 := (i 0).isLt
  have hi1 : (i 1).val < 64 := (i 1).isLt
  have hN : cfg0.N = 32 := N_0
  have hlt : 16 * ((i 0).val / 8) + 15 < cfg0.N := by rw [hN]; omega
  obtain ⟨-, -, -, -, -, -, e6, e7, e8, e9⟩ := idx_facts (⟨16 * ((i 0).val / 8) + 15, hlt⟩ : Fin cfg0.N)
  refine ⟨⟨16 * ((i 0).val / 8) + 15, hlt⟩, (flush0_3 _).mpr (by show (16 * ((i 0).val / 8) + 15) % 16 = 15; omega), ?_⟩
  rw [mem_blk3]
  intro a
  match a with
  | ⟨0, _⟩ =>
    show win0_3.index _ (0 : Fin 2) * 8 ≤ (i 0).val ∧ (i 0).val < win0_3.index _ (0 : Fin 2) * 8 + 8
    rw [e8]
    show (16 * ((i 0).val / 8) + 15) / 16 * 8 ≤ (i 0).val ∧ (i 0).val < (16 * ((i 0).val / 8) + 15) / 16 * 8 + 8
    omega
  | ⟨1, _⟩ =>
    show win0_3.index _ (1 : Fin 2) * 64 ≤ (i 1).val ∧ (i 1).val < win0_3.index _ (1 : Fin 2) * 64 + 64
    rw [e9]
    omega

/-- So the array ends holding the histogram. -/
theorem final3 (c : Dev nD) : (dat0 V c).arrAt 3 cfg0.N = R64 V c :=
  (dat0 V c).arrAt_eq_of_cover 3 (R64 V c) (flushed3_eq V c) cover3

end Cert.KernelIdeal.Hist0

end
-- ==== Proof.K1Payload.lean ====
/-
  What one grid point's body leaves in the two histogram blocks, as functions of the point's input blocks
  (region 1 of the idealized kernel; any float instance).

  The body adds to each running block of counts the point's own counts (`upd16`, `upd64`); at the first point
  of a row block the running block is the zero block it has just stored; at the last point the updated block is
  divided by the number of patches and then by its row sums (`k1_pay3`, `k1_pay4`).  Each lemma reads the
  stores found by the body's run back as that composite.
-/
import proofs.«177430_j31885837205965_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hist1

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 16-bin block after a point: the running block `xo` plus the point's counts of its 4×4 boxes `x0`. -/
def upd16 (x0 : Vec F S8x2048x16 .f32) (xo : Vec F S8x16 .f32) : FVec F S8x16 .f32 :=
  k1_pay22 (k1_pay7 x0) (k1_pay8 x0) (k1_pay9 x0) (k1_pay10 x0) (k1_pay11 x0) (k1_pay12 x0) (k1_pay14 (k1_pay13 x0)) (k1_pay15 (k1_pay7 x0)) (k1_pay16 (k1_pay7 x0)) (k1_pay17 (k1_pay7 x0)) (k1_pay18 (k1_pay7 x0)) (k1_pay19 (k1_pay7 x0)) (k1_pay20 (k1_pay7 x0)) (k1_pay21 (k1_pay7 x0)) xo

/-- The 64-bin block after a point: the running block `xo` plus the point's counts of its 8×8 boxes `x1`. -/
def upd64 (x1 : Vec F S8x2048x64 .f32) (xo : Vec F S8x64 .f32) : FVec F S8x64 .f32 :=
  k1_pay2 (k1_pay1 (k1_pay23 x1) (k1_pay24 x1) (k1_pay25 x1) (k1_pay27 (k1_pay23 x1) k1_pay26) (k1_pay28 (k1_pay23 x1)) (k1_pay29 (k1_pay23 x1)) (k1_pay30 (k1_pay23 x1)) (k1_pay31 (k1_pay23 x1)) (k1_pay32 (k1_pay23 x1)) (k1_pay33 (k1_pay23 x1)) (k1_pay35 (k1_pay34 (k1_pay23 x1))) (k1_pay36 (k1_pay23 x1)) (k1_pay37 (k1_pay23 x1)) (k1_pay38 (k1_pay23 x1)) (k1_pay39 (k1_pay23 x1)) (k1_pay40 (k1_pay23 x1)) (k1_pay41 (k1_pay23 x1)) (k1_pay42 (k1_pay23 x1)) (k1_pay44 (k1_pay23 x1) k1_pay43) (k1_pay45 (k1_pay23 x1)) (k1_pay46 (k1_pay23 x1)) (k1_pay47 (k1_pay23 x1)) (k1_pay48 (k1_pay23 x1)) (k1_pay49 (k1_pay23 x1)) (k1_pay50 (k1_pay23 x1)) (k1_pay52 (k1_pay51 (k1_pay23 x1))) (k1_pay53 (k1_pay23 x1)) (k1_pay54 (k1_pay23 x1)) (k1_pay55 (k1_pay23 x1)) (k1_pay56 (k1_pay23 x1)) (k1_pay57 (k1_pay23 x1)) (k1_pay58 (k1_pay23 x1)) (k1_pay59 (k1_pay23 x1)) (k1_pay61 (k1_pay23 x1) k1_pay60) (k1_pay62 (k1_pay23 x1)) (k1_pay63 (k1_pay23 x1)) (k1_pay64 (k1_pay23 x1)) (k1_pay65 (k1_pay23 x1)) (k1_pay66 (k1_pay23 x1)) (k1_pay67 (k1_pay23 x1)) (k1_pay69 (k1_pay68 (k1_pay23 x1))) (k1_pay70 (k1_pay23 x1)) (k1_pay71 (k1_pay23 x1)) (k1_pay72 (k1_pay23 x1)) (k1_pay73 (k1_pay23 x1)) (k1_pay74 (k1_pay23 x1)) (k1_pay75 (k1_pay23 x1)) (k1_pay76 (k1_pay23 x1)) (k1_pay78 (k1_pay23 x1) k1_pay77) (k1_pay79 (k1_pay23 x1)) (k1_pay80 (k1_pay23 x1)) (k1_pay81 (k1_pay23 x1)) (k1_pay82 (k1_pay23 x1)) (k1_pay83 (k1_pay23 x1)) (k1_pay84 (k1_pay23 x1)) (k1_pay86 (k1_pay85 (k1_pay23 x1))) (k1_pay87 (k1_pay23 x1)) (k1_pay88 (k1_pay23 x1)) (k1_pay89 (k1_pay23 x1)) (k1_pay90 (k1_pay23 x1)) (k1_pay91 (k1_pay23 x1)) (k1_pay92 (k1_pay23 x1)) (k1_pay93 (k1_pay23 x1)) (cmpi .eq (k1_pay23 x1) k1_pay94)) xo

theorem out_A2 (c : Dev nD) (i : grid1.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : cond1_0 i) (hc1 : ¬cond1_1 i)
    (x0 : Vec F S8x2048x16 .f32) (x1 : Vec F S8x2048x64 .f32) :
    out1_A_2 c i a2 h2 a3 h3 a4 h4 a5 h5 hc0 hc1 x0 x1 = upd16 x0 k1_pay5 := by
  unfold out1_A_2
  rw [View.read_writes_eq_canon _ _ _ (cover1_A_2 c i a2 h2 a3 h3 a4 h4 a5 h5 hc0 hc1 x0 x1)]
  unfold kernelRun1_A
  dsimp only
  sl_unfold_words
  rw [View.canon_cons_unit_zero (S := S8x16) hz2, View.readCov_unit_zero (S := S8x16) _ hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_A3 (c : Dev nD) (i : grid1.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : cond1_0 i) (hc1 : ¬cond1_1 i)
    (x0 : Vec F S8x2048x16 .f32) (x1 : Vec F S8x2048x64 .f32) :
    out1_A_3 c i a2 h2 a3 h3 a4 h4 a5 h5 hc0 hc1 x0 x1 = upd64 x1 k1_pay6 := by
  unfold out1_A_3
  rw [View.read_writes_eq_canon _ _ _ (cover1_A_3 c i a2 h2 a3 h3 a4 h4 a5 h5 hc0 hc1 x0 x1)]
  unfold kernelRun1_A
  dsimp only
  sl_unfold_words
  rw [View.canon_cons_unit_zero (S := S8x64) hz2, View.readCov_unit_zero (S := S8x64) _ hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_B2 (c : Dev nD) (i : grid1.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : ¬cond1_0 i) (hc1 : ¬cond1_1 i)
    (x0 : Vec F S8x2048x16 .f32) (x1 : Vec F S8x2048x64 .f32) (xo2 : Vec F S8x16 .f32) (xo3 : Vec F S8x64 .f32) :
    out1_B_2 c i a2 h2 a3 h3 a4 h4 a5 h5 hc0 hc1 x0 x1 xo2 xo3 = upd16 x0 xo2 := by
  unfold out1_B_2
  rw [View.read_writes_eq_canon _ _ _ (cover1_B_2 c i a2 h2 a3 h3 a4 h4 a5 h5 hc0 hc1 x0 x1 xo2 xo3)]
  unfold kernelRun1_B
  dsimp only
  sl_unfold_words
  rw [View.canon_unit_zero hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_B3 (c : Dev nD) (i : grid1.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : ¬cond1_0 i) (hc1 : ¬cond1_1 i)
    (x0 : Vec F S8x2048x16 .f32) (x1 : Vec F S8x2048x64 .f32) (xo2 : Vec F S8x16 .f32) (xo3 : Vec F S8x64 .f32) :
    out1_B_3 c i a2 h2 a3 h3 a4 h4 a5 h5 hc0 hc1 x0 x1 xo2 xo3 = upd64 x1 xo3 := by
  unfold out1_B_3
  rw [View.read_writes_eq_canon _ _ _ (cover1_B_3 c i a2 h2 a3 h3 a4 h4 a5 h5 hc0 hc1 x0 x1 xo2 xo3)]
  unfold kernelRun1_B
  dsimp only
  sl_unfold_words
  rw [View.canon_unit_zero hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_C2 (c : Dev nD) (i : grid1.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : ¬cond1_0 i) (hc1 : cond1_1 i)
    (x0 : Vec F S8x2048x16 .f32) (x1 : Vec F S8x2048x64 .f32) (xo2 : Vec F S8x16 .f32) (xo3 : Vec F S8x64 .f32) :
    out1_C_2 c i a2 h2 a3 h3 a4 h4 a5 h5 hc0 hc1 x0 x1 xo2 xo3 = k1_pay3 (upd16 x0 xo2) := by
  unfold out1_C_2
  rw [View.read_writes_eq_canon _ _ _ (cover1_C_2 c i a2 h2 a3 h3 a4 h4 a5 h5 hc0 hc1 x0 x1 xo2 xo3)]
  unfold kernelRun1_C
  dsimp only
  sl_unfold_words
  rw [View.canon_cons_unit_zero (S := S8x16) hz2, View.readCov_unit_zero (S := S8x16) _ hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

theorem out_C3 (c : Dev nD) (i : grid1.Coords) (a2 : Memref sig .tc .vmem S8x2048x16 .f32) (h2 : a2.IsWhole)
    (a3 : Memref sig .tc .vmem S8x2048x64 .f32) (h3 : a3.IsWhole) (a4 : Memref sig .tc .vmem S8x16 .f32) (h4 : a4.IsWhole)
    (a5 : Memref sig .tc .vmem S8x64 .f32) (h5 : a5.IsWhole) (hc0 : ¬cond1_0 i) (hc1 : cond1_1 i)
    (x0 : Vec F S8x2048x16 .f32) (x1 : Vec F S8x2048x64 .f32) (xo2 : Vec F S8x16 .f32) (xo3 : Vec F S8x64 .f32) :
    out1_C_3 c i a2 h2 a3 h3 a4 h4 a5 h5 hc0 hc1 x0 x1 xo2 xo3 = k1_pay4 (upd64 x1 xo3) := by
  unfold out1_C_3
  rw [View.read_writes_eq_canon _ _ _ (cover1_C_3 c i a2 h2 a3 h3 a4 h4 a5 h5 hc0 hc1 x0 x1 xo2 xo3)]
  unfold kernelRun1_C
  dsimp only
  sl_unfold_words
  rw [View.canon_cons_unit_zero (S := S8x64) hz2, View.readCov_unit_zero (S := S8x64) _ hz2]
  simp only [View.readAt_eq_ld, h2.read_unread, h3.read_unread, h4.read_unread, h5.read_unread, View.ld_unit_zero (S := S8x16) hz2, View.ld_unit_zero (S := S8x64) hz2, View.ld_unit_zero (S := S8x2048x16) hz3, View.ld_unit_zero (S := S8x2048x64) hz3]
  rfl

end Cert.KernelIdeal.Hist1

end
-- ==== Proof.K1Accum.lean ====
/-
  What the two histogram blocks hold after each grid point of region 1, by induction on the point.

  The grid is 2 row blocks × 16 box blocks, the box block moving fastest: point t works on rows 8·(t/16) … 8·(t/16)+7
  and boxes 2048·(t%16) … 2048·(t%16)+2047.  After point t with t%16 < 15 the running blocks hold, for each of the 8
  rows and each bin, the number of boxes among the row's first 2048·(t%16 + 1) whose popcount is the bin; after the
  last point of a row block (t%16 = 15) they hold the normalised histogram of those 8 rows.
-/
import proofs.«177430_j31885837205965_2_alg».proof.Proof.K1Payload
import proofs.«177430_j31885837205965_2_alg».proof.Proof.HistOps
import proofs.«177430_j31885837205965_2_alg».proof.Proof.HistSpec

noncomputable section

open Idealize.ShloMosaic Idealize.ShloMosaic.TcCoe Idealize.SL.Sem Idealize.ShloMosaic.ValueIdx

namespace Cert.KernelIdeal.Hist1

open Cert.KernelIdeal Cert.KernelIdeal.Gen Cert.KernelIdeal.HistOps Cert.HistSpec Cert.BinCount

/-! ## The body's composites are the histogram operations (any float instance) -/

section
variable {F : FTy → Type} [FloatOps F]
theorem upd16_eq (x0 : Vec F S8x2048x16 .f32) (xo : Vec F S8x16 .f32) : upd16 x0 xo = add16 x0 xo := rfl
theorem upd64_eq (x1 : Vec F S8x2048x64 .f32) (xo : Vec F S8x64 .f32) : upd64 x1 xo = add64 x1 xo := rfl
theorem pay3_eq (v : Vec F S8x16 .f32) : k1_pay3 v = norm16 v := rfl
theorem pay4_eq (v : Vec F S8x64 .f32) : k1_pay4 v = norm64 v := rfl
end

/-! ## At the extended reals, from the region's entry contents `V` -/

variable (V : (c : Dev nD) → (b : Ref sig .tc) → Buf (Elt Ideal) ((c : Thread nD τ).loc b))

/-- The array of flattened 4×4 boxes the region reads. -/
abbrev A0 (c : Dev nD) : (⟨3, ![16, 32768, 16]⟩ : Shape).Idx → EReal := V c main_v3
/-- The array of flattened 8×8 boxes the region reads. -/
abbrev A1 (c : Dev nD) : (⟨3, ![16, 32768, 64]⟩ : Shape).Idx → EReal := V c main_v4

/-- The printed index maps over the grid: the input blocks follow (t/16, t%16), the output blocks t/16. -/
theorem idx_facts : ∀ t : Fin cfg1.N, win1_0.index t (0 : Fin 3) = t.val / 16 ∧ win1_0.index t (1 : Fin 3) = t.val % 16
    ∧ win1_0.index t (2 : Fin 3) = 0 ∧ win1_1.index t (0 : Fin 3) = t.val / 16 ∧ win1_1.index t (1 : Fin 3) = t.val % 16
    ∧ win1_1.index t (2 : Fin 3) = 0 ∧ win1_2.index t (0 : Fin 2) = t.val / 16 ∧ win1_2.index t (1 : Fin 2) = 0
    ∧ win1_3.index t (0 : Fin 2) = t.val / 16 ∧ win1_3.index t (1 : Fin 2) = 0 :=
  (by decide +kernel : ∀ t : Fin grid1.N, _)

/-- Input window 0's block at point `t`: entry (r, q, k) is the array's entry at row 8·(t/16) + r, box 2048·(t%16) + q. -/
theorem iblk_0_apply (c : Dev nD) (t : Fin cfg1.N) (r : Fin 8) (q : Fin 2048) (k : Fin 16)
    (hb : 8 * (t.val / 16) + r.val < 16) (hp : 2048 * (t.val % 16) + q.val < 32768) :
    (iblk1 V c 0 t : Vec Ideal S8x2048x16 .f32) (ix3 r q k) = A0 V c (ix3 ⟨_, hb⟩ ⟨_, hp⟩ k) := by
  obtain ⟨e0, e1, e2, e3, e4, e5, -⟩ := idx_facts t
  unfold iblk1
  rw [View.read_apply]
  show V c main_v3 (((cfg1.win 0).blk t).view.emb (ix3 r q k)) = V c main_v3 _
  refine congrArg (V c main_v3) (funext fun a => Fin.ext ?_)
  match a with
  | ⟨0, _⟩ => show win1_0.index t (0 : Fin 3) * 8 + 1 * r.val = 8 * (t.val / 16) + r.val; rw [e0]; omega
  | ⟨1, _⟩ => show win1_0.index t (1 : Fin 3) * 2048 + 1 * q.val = 2048 * (t.val % 16) + q.val; rw [e1]; omega
  | ⟨2, _⟩ => show win1_0.index t (2 : Fin 3) * 16 + 1 * k.val = k.val; rw [e2]; omega

/-- The point's count of one (row, bin), as a count over the row's boxes 2048·(t%16) … 2048·(t%16) + 2047. -/
theorem blk16 (c : Dev nD) (t : Fin cfg1.N) (r : Fin 8) (j : ℕ) :
    ∑ q : Fin 2048, ind (Ideal.fptosi 32 (∑ k : Fin 16, (iblk1 V c 0 t : Vec Ideal S8x2048x16 .f32) (ix3 r q k))) (BitVec.ofNat 32 j)
      = ∑ x ∈ Finset.range 2048, ind (popN (A0 V c) (8 * (t.val / 16) + r.val) (2048 * (t.val % 16) + x)) (BitVec.ofNat 32 j) := by
  have hN : t.val < 32 := lt_of_lt_of_eq t.isLt (show cfg1.N = 32 from N_1)
  rw [Finset.sum_range]
  refine Finset.sum_congr rfl fun q _ => ?_
  have hb : 8 * (t.val / 16) + r.val < 16 := by have := r.isLt; omega
  have hp : 2048 * (t.val % 16) + q.val < 32768 := by have := q.isLt; omega
  unfold popN
  rw [dif_pos ⟨hb, hp⟩]
  refine congrArg (fun s => ind (Ideal.fptosi 32 s) (BitVec.ofNat 32 j)) (Finset.sum_congr rfl fun k _ => ?_)
  exact iblk_0_apply V c t r q k hb hp

/-- One point's update: if the running block holds the counts over the row's first 2048·(t%16) boxes, the updated
    block holds the counts over the first 2048·(t%16 + 1). -/
theorem step16 (c : Dev nD) (t : Fin cfg1.N) (xo : Vec Ideal S8x16 .f32)
    (hxo : ∀ (r : Fin 8) (j : Fin 16), xo (ix2 r j) = cntN (A0 V c) (8 * (t.val / 16) + r.val) j.val (2048 * (t.val % 16)))
    (r : Fin 8) (j : Fin 16) :
    add16 (F := Ideal) (iblk1 V c 0 t) xo (ix2 r j)
      = cntN (A0 V c) (8 * (t.val / 16) + r.val) j.val (2048 * (t.val % 16 + 1)) := by
  rw [add16_apply, hxo, blk16 V c t r j.val, cntN_step]

/-- The last point of a row block: the updated block, normalised, is the histogram of the block's rows. -/
theorem fin16 (c : Dev nD) (t : Fin cfg1.N) (h15 : t.val % 16 = 15) (xo : Vec Ideal S8x16 .f32)
    (hxo : ∀ (r : Fin 8) (j : Fin 16), xo (ix2 r j) = cntN (A0 V c) (8 * (t.val / 16) + r.val) j.val (2048 * (t.val % 16))) :
    norm16 (F := Ideal) (add16 (F := Ideal) (iblk1 V c 0 t) xo)
      = fun i => hist (A0 V c) (8 * (t.val / 16) + (i 0).val) (i 1).val := by
  funext i
  obtain ⟨r, j, rfl⟩ : ∃ (r : Fin 8) (j : Fin 16), i = ix2 r j := ⟨i 0, i 1, eq_ix2 i⟩
  have e : ∀ k : Fin 16, add16 (F := Ideal) (iblk1 V c 0 t) xo (ix2 r k)
      = cntN (A0 V c) (8 * (t.val / 16) + r.val) k.val 32768 := fun k => by
    rw [step16 V c t xo hxo r k, h15]
  rw [norm16_apply, e j]
  unfold hist
  exact congrArg (Ideal.div _) (Finset.sum_congr rfl fun k _ => by rw [e k])

/-- The zero block is the count over no boxes. -/
theorem zero16 (c : Dev nD) (b : ℕ) (r : Fin 8) (j : Fin 16) :
    (k1_pay5 (F := Ideal) : FVec Ideal S8x16 .f32) (ix2 r j) = cntN (A0 V c) b j.val (2048 * 0) := by
  rw [cntN_zero]
  show Ideal.ofBits .f32 0x00000000#32 = 0
  exact Ideal.ofBits_zero_f32

/-- Input window 1's block at point `t`: entry (r, q, k) is the array's entry at row 8·(t/16) + r, box 2048·(t%16) + q. -/
theorem iblk_1_apply (c : Dev nD) (t : Fin cfg1.N) (r : Fin 8) (q : Fin 2048) (k : Fin 64)
    (hb : 8 * (t.val / 16) + r.val < 16) (hp : 2048 * (t.val % 16) + q.val < 32768) :
    (iblk1 V c 1 t : Vec Ideal S8x2048x64 .f32) (ix3 r q k) = A1 V c (ix3 ⟨_, hb⟩ ⟨_, hp⟩ k) := by
  obtain ⟨e0, e1, e2, e3, e4, e5, -⟩ := idx_facts t
  unfold iblk1
  rw [View.read_apply]
  show V c main_v4 (((cfg1.win 1).blk t).view.emb (ix3 r q k)) = V c main_v4 _
  refine congrArg (V c main_v4) (funext fun a => Fin.ext ?_)
  match a with
  | ⟨0, _⟩ => show win1_1.index t (0 : Fin 3) * 8 + 1 * r.val = 8 * (t.val / 16) + r.val; rw [e3]; omega
  | ⟨1, _⟩ => show win1_1.index t (1 : Fin 3) * 2048 + 1 * q.val = 2048 * (t.val % 16) + q.val; rw [e4]; omega
  | ⟨2, _⟩ => show win1_1.index t (2 : Fin 3) * 64 + 1 * k.val = k.val; rw [e5]; omega

/-- The point's count of one (row, bin), as a count over the row's boxes 2048·(t%16) … 2048·(t%16) + 2047. -/
theorem blk64 (c : Dev nD) (t : Fin cfg1.N) (r : Fin 8) (j : ℕ) :
    ∑ q : Fin 2048, ind (Ideal.fptosi 32 (∑ k : Fin 64, (iblk1 V c 1 t : Vec Ideal S8x2048x64 .f32) (ix3 r q k))) (BitVec.ofNat 32 j)
      = ∑ x ∈ Finset.range 2048, ind (popN (A1 V c) (8 * (t.val / 16) + r.val) (2048 * (t.val % 16) + x)) (BitVec.ofNat 32 j) := by
  have hN : t.val < 32 := lt_of_lt_of_eq t.isLt (show cfg1.N = 32 from N_1)
  rw [Finset.sum_range]
  refine Finset.sum_congr rfl fun q _ => ?_
  have hb : 8 * (t.val / 16) + r.val < 16 := by have := r.isLt; omega
  have hp : 2048 * (t.val % 16) + q.val < 32768 := by have := q.isLt; omega
  unfold popN
  rw [dif_pos ⟨hb, hp⟩]
  refine congrArg (fun s => ind (Ideal.fptosi 32 s) (BitVec.ofNat 32 j)) (Finset.sum_congr rfl fun k _ => ?_)
  exact iblk_1_apply V c t r q k hb hp

/-- One point's update: if the running block holds the counts over the row's first 2048·(t%16) boxes, the updated
    block holds the counts over the first 2048·(t%16 + 1). -/
theorem step64 (c : Dev nD) (t : Fin cfg1.N) (xo : Vec Ideal S8x64 .f32)
    (hxo : ∀ (r : Fin 8) (j : Fin 64), xo (ix2 r j) = cntN (A1 V c) (8 * (t.val / 16) + r.val) j.val (2048 * (t.val % 16)))
    (r : Fin 8) (j : Fin 64) :
    add64 (F := Ideal) (iblk1 V c 1 t) xo (ix2 r j)
      = cntN (A1 V c) (8 * (t.val / 16) + r.val) j.val (2048 * (t.val % 16 + 1)) := by
  rw [add64_apply, hxo, blk64 V c t r j.val, cntN_step]

/-- The last point of a row block: the updated block, normalised, is the histogram of the block's rows. -/
theorem fin64 (c : Dev nD) (t : Fin cfg1.N) (h15 : t.val % 16 = 15) (xo : Vec Ideal S8x64 .f32)
    (hxo : ∀ (r : Fin 8) (j : Fin 64), xo (ix2 r j) = cntN (A1 V c) (8 * (t.val / 16) + r.val) j.val (2048 * (t.val % 16))) :
    norm64 (F := Ideal) (add64 (F := Ideal) (iblk1 V c 1 t) xo)
      = fun i => hist (A1 V c) (8 * (t.val / 16) + (i 0).val) (i 1).val := by
  funext i
  obtain ⟨r, j, rfl⟩ : ∃ (r : Fin 8) (j : Fin 64), i = ix2 r j := ⟨i 0, i 1, eq_ix2 i⟩
  have e : ∀ k : Fin 64, add64 (F := Ideal) (iblk1 V c 1 t) xo (ix2 r k)
      = cntN (A1 V c) (8 * (t.val / 16) + r.val) k.val 32768 := fun k => by
    rw [step64 V c t xo hxo r k, h15]
  rw [norm64_apply, e j]
  unfold hist
  exact congrArg (Ideal.div _) (Finset.sum_congr rfl fun k _ => by rw [e k])

/-- The zero block is the count over no boxes. -/
theorem zero64 (c : Dev nD) (b : ℕ) (r : Fin 8) (j : Fin 64) :
    (k1_pay6 (F := Ideal) : FVec Ideal S8x64 .f32) (ix2 r j) = cntN (A1 V c) b j.val (2048 * 0) := by
  rw [cntN_zero]
  show Ideal.ofBits .f32 0x00000000#32 = 0
  exact Ideal.ofBits_zero_f32

/-- What the blocks hold after point `n`. -/
def Inv (c : Dev nD) (n : ℕ) (h : n < cfg1.N) : Prop :=
  (n % 16 ≠ 15 →
      (∀ (r : Fin 8) (j : Fin 16), (outsAt1 V c n h).1 (ix2 r j) = cntN (A0 V c) (8 * (n / 16) + r.val) j.val (2048 * (n % 16 + 1)))
      ∧ (∀ (r : Fin 8) (j : Fin 64), (outsAt1 V c n h).2 (ix2 r j) = cntN (A1 V c) (8 * (n / 16) + r.val) j.val (2048 * (n % 16 + 1))))
  ∧ (n % 16 = 15 →
      (outsAt1 V c n h).1 = (fun i => hist (A0 V c) (8 * (n / 16) + (i 0).val) (i 1).val)
      ∧ (outsAt1 V c n h).2 = (fun i => hist (A1 V c) (8 * (n / 16) + (i 0).val) (i 1).val))

theorem inv (c : Dev nD) : ∀ (n : ℕ) (h : n < cfg1.N), Inv V c n h
  | 0, h => by
    unfold Inv
    refine ⟨fun _ => ?_, fun h15 => absurd h15 (by decide)⟩
    rw [outsAt1_A V c ⟨0, h⟩ rfl (by show ¬ (0 : ℕ) % 16 = 15; decide)]
    dsimp only
    rw [out_A2, out_A3, upd16_eq, upd64_eq]
    exact ⟨step16 V c ⟨0, h⟩ _ (fun r j => zero16 V c _ r j), step64 V c ⟨0, h⟩ _ (fun r j => zero64 V c _ r j)⟩
  | n + 1, h => by
    have ih := inv c n (Nat.lt_of_succ_lt h)
    unfold Inv at ih ⊢
    have hN : n + 1 < 32 := lt_of_lt_of_eq h (show cfg1.N = 32 from N_1)
    by_cases h0 : (n + 1) % 16 = 0
    · have h1 : ¬ (n + 1) % 16 = 15 := by omega
      refine ⟨fun _ => ?_, fun h15 => absurd h15 h1⟩
      rw [outsAt1_A V c ⟨n + 1, h⟩ h0 h1]
      dsimp only
      rw [out_A2, out_A3, upd16_eq, upd64_eq]
      refine ⟨step16 V c ⟨n + 1, h⟩ _ (fun r j => ?_), step64 V c ⟨n + 1, h⟩ _ (fun r j => ?_)⟩
      · show _ = cntN _ _ _ (2048 * ((n + 1) % 16)); rw [h0]; exact zero16 V c _ r j
      · show _ = cntN _ _ _ (2048 * ((n + 1) % 16)); rw [h0]; exact zero64 V c _ r j
    · have e1 : n / 16 = (n + 1) / 16 := by omega
      have e2 : n % 16 + 1 = (n + 1) % 16 := by omega
      have hn15 : n % 16 ≠ 15 := by omega
      obtain ⟨ih16, ih64⟩ := ih.1 hn15
      have hx16 : ∀ (r : Fin 8) (j : Fin 16), (outsAt1 V c n (Nat.lt_of_succ_lt h)).1 (ix2 r j)
          = cntN (A0 V c) (8 * ((n + 1) / 16) + r.val) j.val (2048 * ((n + 1) % 16)) := fun r j => by
        rw [← e1, ← e2]; exact ih16 r j
      have hx64 : ∀ (r : Fin 8) (j : Fin 64), (outsAt1 V c n (Nat.lt_of_succ_lt h)).2 (ix2 r j)
          = cntN (A1 V c) (8 * ((n + 1) / 16) + r.val) j.val (2048 * ((n + 1) % 16)) := fun r j => by
        rw [← e1, ← e2]; exact ih64 r j
      by_cases h1 : (n + 1) % 16 = 15
      · refine ⟨fun hne => absurd h1 hne, fun _ => ?_⟩
        rw [outsAt1_C V c ⟨n + 1, h⟩ h0 h1]
        dsimp only
        rw [out_C2, out_C3, upd16_eq, upd64_eq, pay3_eq, pay4_eq]
        exact ⟨fin16 V c ⟨n + 1, h⟩ h1 _ hx16, fin64 V c ⟨n + 1, h⟩ h1 _ hx64⟩
      · refine ⟨fun _ => ?_, fun h15 => absurd h15 h1⟩
        rw [outsAt1_B V c ⟨n + 1, h⟩ h0 h1]
        dsimp only
        rw [out_B2, out_B3, upd16_eq, upd64_eq]
        exact ⟨step16 V c ⟨n + 1, h⟩ _ hx16, step64 V c ⟨n + 1, h⟩ _ hx64⟩

end Cert.KernelIdeal.Hist1

end
-- ==== Proof.K1Final.lean ====
/-
  Region 1's two result arrays after the region: every 8-row block is written once, by the last point of its
  row block, with the normalised histogram of its rows; the blocks tile the arrays.
-/
import proofs.«177430_j31885837205965_2_alg».proof.Proof.K1Accum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hist1

open Cert.KernelIdeal Cert.KernelIdeal.Gen Cert.KernelIdeal.HistOps Cert.HistSpec Cert.BinCount

variable (V : (c : Dev nD) → (b : Ref sig .tc) → Buf (Elt Ideal) ((c : Thread nD τ).loc b))

/-- Output window 2's array after the region: the histogram of every row. -/
def R16 (c : Dev nD) : (⟨2, ![16, 16]⟩ : Shape).Idx → EReal := fun i => hist (A0 V c) (i 0).val (i 1).val

/-- What a writing point (the last of its row block) writes back is its block of the histogram array. -/
theorem flushed2_eq (c : Dev nD) (t : Fin cfg1.N) (hf : (cfg1.win 2).flush t = true) :
    (dat1 V c).flushed 2 t = ((cfg1.win 2).blk t).view.read (Elt Ideal) (R16 V c) := by
  have h15 : t.val % 16 = 15 := (flush1_2 t).mp hf
  obtain ⟨-, -, -, -, -, -, e6, e7, e8, e9⟩ := idx_facts t
  show (cfg1.win 2).cut (grid1.coords t) ((dat1 V c).after 2 t) = _
  rw [after1_2, ((inv V c t.val t.isLt).2 h15).1]
  funext j
  show hist (A0 V c) (8 * (t.val / 16) + (j 0).val) (j 1).val = R16 V c (((cfg1.win 2).blk t).view.emb j)
  unfold R16
  have ha : ((((cfg1.win 2).blk t).view.emb j) 0).val = 8 * (t.val / 16) + (j 0).val := by
    show win1_2.index t (0 : Fin 2) * 8 + 1 * (j 0).val = _; rw [e6]; omega
  have hb : ((((cfg1.win 2).blk t).view.emb j) 1).val = (j 1).val := by
    show win1_2.index t (1 : Fin 2) * 16 + 1 * (j 1).val = _; rw [e7]; omega
  rw [ha, hb]

/-- An index of the array is in point `t`'s block iff each coordinate is in the block's range on its axis. -/
theorem mem_blk2 (t : Fin cfg1.N) (i : S16x16.Idx) :
    i ∈ ((cfg1.win 2).blk t).view.set ↔ ∀ a : Fin 2, win1_2.index t a * S8x16.size a ≤ (i a).val ∧ (i a).val < win1_2.index t a * S8x16.size a + S8x16.size a := by
  show i ∈ ((View.whole main_v5_0).slice (win1_2.rect t)).set ↔ _
  rw [View.set_slice_whole, Rect.mem_set_unit]
  exact Iff.rfl

/-- Every row of the array lies in the block written by the last point of its row block. -/
theorem cover2 (i : S16x16.Idx) : ∃ t : Fin cfg1.N, (cfg1.win 2).flush t = true ∧ i ∈ ((cfg1.win 2).blk t).view.set := by
  have hi0 : (i 0).val < 16 := (i 0).isLt
  have hi1 : (i 1).val < 16 := (i 1).isLt
  have hN : cfg1.N = 32 := N_1
  have hlt : 16 * ((i 0).val / 8) + 15 < cfg1.N := by rw [hN]; omega
  obtain ⟨-, -, -, -, -, -, e6, e7, e8, e9⟩ := idx_facts (⟨16 * ((i 0).val / 8) + 15, hlt⟩ : Fin cfg1.N)
  refine ⟨⟨16 * ((i 0).val / 8) + 15, hlt⟩, (flush1_2 _).mpr (by show (16 * ((i 0).val / 8) + 15) % 16 = 15; omega), ?_⟩
  rw [mem_blk2]
  intro a
  match a with
  | ⟨0, _⟩ =>
    show win1_2.index _ (0 : Fin 2) * 8 ≤ (i 0).val ∧ (i 0).val < win1_2.index _ (0 : Fin 2) * 8 + 8
    rw [e6]
    show (16 * ((i 0).val / 8) + 15) / 16 * 8 ≤ (i 0).val ∧ (i 0).val < (16 * ((i 0).val / 8) + 15) / 16 * 8 + 8
    omega
  | ⟨1, _⟩ =>
    show win1_2.index _ (1 : Fin 2) * 16 ≤ (i 1).val ∧ (i 1).val < win1_2.index _ (1 : Fin 2) * 16 + 16
    rw [e7]
    omega

/-- So the array ends holding the histogram. -/
theorem final2 (c : Dev nD) : (dat1 V c).arrAt 2 cfg1.N = R16 V c :=
  (dat1 V c).arrAt_eq_of_cover 2 (R16 V c) (flushed2_eq V c) cover2

/-- Output window 3's array after the region: the histogram of every row. -/
def R64 (c : Dev nD) : (⟨2, ![16, 64]⟩ : Shape).Idx → EReal := fun i => hist (A1 V c) (i 0).val (i 1).val

/-- What a writing point (the last of its row block) writes back is its block of the histogram array. -/
theorem flushed3_eq (c : Dev nD) (t : Fin cfg1.N) (hf : (cfg1.win 3).flush t = true) :
    (dat1 V c).flushed 3 t = ((cfg1.win 3).blk t).view.read (Elt Ideal) (R64 V c) := by
  have h15 : t.val % 16 = 15 := (flush1_3 t).mp hf
  obtain ⟨-, -, -, -, -, -, e6, e7, e8, e9⟩ := idx_facts t
  show (cfg1.win 3).cut (grid1.coords t) ((dat1 V c).after 3 t) = _
  rw [after1_3, ((inv V c t.val t.isLt).2 h15).2]
  funext j
  show hist (A1 V c) (8 * (t.val / 16) + (j 0).val) (j 1).val = R64 V c (((cfg1.win 3).blk t).view.emb j)
  unfold R64
  have ha : ((((cfg1.win 3).blk t).view.emb j) 0).val = 8 * (t.val / 16) + (j 0).val := by
    show win1_3.index t (0 : Fin 2) * 8 + 1 * (j 0).val = _; rw [e8]; omega
  have hb : ((((cfg1.win 3).blk t).view.emb j) 1).val = (j 1).val := by
    show win1_3.index t (1 : Fin 2) * 64 + 1 * (j 1).val = _; rw [e9]; omega
  rw [ha, hb]

/-- An index of the array is in point `t`'s block iff each coordinate is in the block's range on its axis. -/
theorem mem_blk3 (t : Fin cfg1.N) (i : S16x64.Idx) :
    i ∈ ((cfg1.win 3).blk t).view.set ↔ ∀ a : Fin 2, win1_3.index t a * S8x64.size a ≤ (i a).val ∧ (i a).val < win1_3.index t a * S8x64.size a + S8x64.size a := by
  show i ∈ ((View.whole main_v5_1).slice (win1_3.rect t)).set ↔ _
  rw [View.set_slice_whole, Rect.mem_set_unit]
  exact Iff.rfl

/-- Every row of the array lies in the block written by the last point of its row block. -/
theorem cover3 (i : S16x64.Idx) : ∃ t : Fin cfg1.N, (cfg1.win 3).flush t = true ∧ i ∈ ((cfg1.win 3).blk t).view.set := by
  have hi0 : (i 0).val < 16 := (i 0).isLt
  have hi1 : (i 1).val < 64 := (i 1).isLt
  have hN : cfg1.N = 32 := N_1
  have hlt : 16 * ((i 0).val / 8) + 15 < cfg1.N := by rw [hN]; omega
  obtain ⟨-, -, -, -, -, -, e6, e7, e8, e9⟩ := idx_facts (⟨16 * ((i 0).val / 8) + 15, hlt⟩ : Fin cfg1.N)
  refine ⟨⟨16 * ((i 0).val / 8) + 15, hlt⟩, (flush1_3 _).mpr (by show (16 * ((i 0).val / 8) + 15) % 16 = 15; omega), ?_⟩
  rw [mem_blk3]
  intro a
  match a with
  | ⟨0, _⟩ =>
    show win1_3.index _ (0 : Fin 2) * 8 ≤ (i 0).val ∧ (i 0).val < win1_3.index _ (0 : Fin 2) * 8 + 8
    rw [e8]
    show (16 * ((i 0).val / 8) + 15) / 16 * 8 ≤ (i 0).val ∧ (i 0).val < (16 * ((i 0).val / 8) + 15) / 16 * 8 + 8
    omega
  | ⟨1, _⟩ =>
    show win1_3.index _ (1 : Fin 2) * 64 ≤ (i 1).val ∧ (i 1).val < win1_3.index _ (1 : Fin 2) * 64 + 64
    rw [e9]
    omega

/-- So the array ends holding the histogram. -/
theorem final3 (c : Dev nD) : (dat1 V c).arrAt 3 cfg1.N = R64 V c :=
  (dat1 V c).arrAt_eq_of_cover 3 (R64 V c) (flushed3_eq V c) cover3

end Cert.KernelIdeal.Hist1

end
-- ==== Proof.KRun.lean ====
/-
  The idealized kernel's run with its four result arrays named, and what they and the regions' input arrays are.

  @main is: flatten the first pair of inputs, run region 0, flatten the second pair, run region 1.  The run theorem
  is the launch over those four segments with the final memory read at the result arrays as well as at the
  arguments.  Region 0's results are not touched by anything after it; each region reads the flattened arguments.
-/
import proofs.«177430_j31885837205965_2_alg».proof.Proof.K0Final
import proofs.«177430_j31885837205965_2_alg».proof.Proof.K1Final
import Idealize.ShloMosaic.Lib.StableHlo.Run

set_option maxRecDepth 16384

noncomputable section

namespace Cert.KernelIdeal.HistRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result array at the last
    boundary's contents and the arguments as launched. -/
theorem run_values : θ_run defs (onTc (τ := τ) (main (F := F))) ⟨m, fun _ => 0, ρ⟩ (fun r => ∀ c : Dev nD,
      r.2.mem ((c.tc : Thread nD τ).loc main_v2_0) = W4 m ρ c (Proc.devRef .tc main_v2_0)
      ∧ r.2.mem ((c.tc : Thread nD τ).loc main_v2_1) = W4 m ρ c (Proc.devRef .tc main_v2_1)
      ∧ r.2.mem ((c.tc : Thread nD τ).loc main_v5_0) = W4 m ρ c (Proc.devRef .tc main_v5_0)
      ∧ r.2.mem ((c.tc : Thread nD τ).loc main_v5_1) = W4 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v2_0 (by decide)),
       h c _ (mem_uc main_v2_1 (by decide)),
       h c _ (mem_uc main_v5_0 (by decide)),
       h c _ (mem_uc main_v5_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- Region 0's first result array is not written after region 0. -/
theorem W4_v2_0 (c : Dev nD) : W4 m ρ c (Proc.devRef .tc main_v2_0) = (dat0 (V1 m ρ) c).arrAt 2 cfg0.N :=
  calc W4 m ρ c (Proc.devRef .tc main_v2_0)
    _ = W3 m ρ c (Proc.devRef .tc main_v2_0) := W4_of_ne m ρ c main_v2_0 (by decide)
    _ = W2 m ρ c (Proc.devRef .tc main_v2_0) := StableHlo.after_of_forall_not_mem (b := Proc.devRef .tc main_v2_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 2 cfg0.N := W2_arr m ρ c 2

/-- Region 0's second result array is not written after region 0. -/
theorem W4_v2_1 (c : Dev nD) : W4 m ρ c (Proc.devRef .tc main_v2_1) = (dat0 (V1 m ρ) c).arrAt 3 cfg0.N :=
  calc W4 m ρ c (Proc.devRef .tc main_v2_1)
    _ = W3 m ρ c (Proc.devRef .tc main_v2_1) := W4_of_ne m ρ c main_v2_1 (by decide)
    _ = W2 m ρ c (Proc.devRef .tc main_v2_1) := StableHlo.after_of_forall_not_mem (b := Proc.devRef .tc main_v2_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3

/-- The third argument is as launched when the second stretch of host operations reads it. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The fourth argument is as launched when the second stretch of host operations reads it. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Region 0 reads the first argument's boxes flattened. -/
theorem V1_v0 (c : Dev nD) : (V1 m ρ c main_v0 : S16x32768x16.Idx → Elt F .f32)
    = shapeCast S16x32768x16 (m ((c : Thread nD τ).loc main_arg0)) Facts₀.shapeCasts_S16x32768x4x4_S16x32768x16 := by
  show StableHlo.after hostOps0 (W0 m ρ c) (Proc.devRef .tc main_v0) = _
  after_results
  rfl

/-- Region 0 reads the second argument's boxes flattened. -/
theorem V1_v1 (c : Dev nD) : (V1 m ρ c main_v1 : S16x32768x64.Idx → Elt F .f32)
    = shapeCast S16x32768x64 (m ((c : Thread nD τ).loc main_arg1)) Facts₀.shapeCasts_S16x32768x8x8_S16x32768x64 := by
  show StableHlo.after hostOps0 (W0 m ρ c) (Proc.devRef .tc main_v1) = _
  after_results
  rfl

/-- Region 1 reads the third argument's boxes flattened. -/
theorem V3_v3 (c : Dev nD) : (V3 m ρ c main_v3 : S16x32768x16.Idx → Elt F .f32)
    = shapeCast S16x32768x16 (m ((c : Thread nD τ).loc main_arg2)) Facts₀.shapeCasts_S16x32768x4x4_S16x32768x16 := by
  rw [← W2_main_arg2 m ρ c]
  show StableHlo.after hostOps1 (W2 m ρ c) (Proc.devRef .tc main_v3) = _
  after_results
  rfl

/-- Region 1 reads the fourth argument's boxes flattened. -/
theorem V3_v4 (c : Dev nD) : (V3 m ρ c main_v4 : S16x32768x64.Idx → Elt F .f32)
    = shapeCast S16x32768x64 (m ((c : Thread nD τ).loc main_arg3)) Facts₀.shapeCasts_S16x32768x8x8_S16x32768x64 := by
  rw [← W2_main_arg3 m ρ c]
  show StableHlo.after hostOps1 (W2 m ρ c) (Proc.devRef .tc main_v4) = _
  after_results
  rfl

end Run

/-! ## The results as functions of the argument arrays -/

section Results

open Cert.HistSpec

variable (m : (ℓ : Loc nD τ sig) → Buf (Elt Ideal) ℓ) (ρ : Dev nD → PrngReg)

/-- Result 0 as a function of the launch memory: the histogram of argument 0's flattened boxes. -/
def out0 (c : Dev nD) : (⟨2, ![16, 16]⟩ : Shape).Idx → EReal :=
  fun i => hist (shapeCast S16x32768x16 (m ((c : Thread nD τ).loc main_arg0)) Facts₀.shapeCasts_S16x32768x4x4_S16x32768x16) (i 0).val (i 1).val

/-- Result 1 as a function of the launch memory: the histogram of argument 1's flattened boxes. -/
def out1 (c : Dev nD) : (⟨2, ![16, 64]⟩ : Shape).Idx → EReal :=
  fun i => hist (shapeCast S16x32768x64 (m ((c : Thread nD τ).loc main_arg1)) Facts₀.shapeCasts_S16x32768x8x8_S16x32768x64) (i 0).val (i 1).val

/-- Result 2 as a function of the launch memory: the histogram of argument 2's flattened boxes. -/
def out2 (c : Dev nD) : (⟨2, ![16, 16]⟩ : Shape).Idx → EReal :=
  fun i => hist (shapeCast S16x32768x16 (m ((c : Thread nD τ).loc main_arg2)) Facts₀.shapeCasts_S16x32768x4x4_S16x32768x16) (i 0).val (i 1).val

/-- Result 3 as a function of the launch memory: the histogram of argument 3's flattened boxes. -/
def out3 (c : Dev nD) : (⟨2, ![16, 64]⟩ : Shape).Idx → EReal :=
  fun i => hist (shapeCast S16x32768x64 (m ((c : Thread nD τ).loc main_arg3)) Facts₀.shapeCasts_S16x32768x8x8_S16x32768x64) (i 0).val (i 1).val

theorem res0 (c : Dev nD) : W4 m ρ c (Proc.devRef .tc main_v2_0) = out0 m c := by
  rw [W4_v2_0 m ρ c, Hist0.final2 (V1 m ρ) c]
  unfold Hist0.R16 out0
  rw [show Hist0.A0 (V1 m ρ) c = _ from V1_v0 m ρ c]

theorem res1 (c : Dev nD) : W4 m ρ c (Proc.devRef .tc main_v2_1) = out1 m c := by
  rw [W4_v2_1 m ρ c, Hist0.final3 (V1 m ρ) c]
  unfold Hist0.R64 out1
  rw [show Hist0.A1 (V1 m ρ) c = _ from V1_v1 m ρ c]

theorem res2 (c : Dev nD) : W4 m ρ c (Proc.devRef .tc main_v5_0) = out2 m c := by
  rw [show W4 m ρ c (Proc.devRef .tc main_v5_0) = _ from W4_arr m ρ c 2, Hist1.final2 (V3 m ρ) c]
  unfold Hist1.R16 out2
  rw [show Hist1.A0 (V3 m ρ) c = _ from V3_v3 m ρ c]

theorem res3 (c : Dev nD) : W4 m ρ c (Proc.devRef .tc main_v5_1) = out3 m c := by
  rw [show W4 m ρ c (Proc.devRef .tc main_v5_1) = _ from W4_arr m ρ c 3, Hist1.final3 (V3 m ρ) c]
  unfold Hist1.R64 out3
  rw [show Hist1.A1 (V3 m ρ) c = _ from V3_v4 m ρ c]

/-- The idealized kernel's run: each result array ends at the histogram of its argument's flattened boxes, the
    arguments as launched. -/
theorem run_hist : θ_run defs (onTc (τ := τ) (main (F := Ideal))) ⟨m, fun _ => 0, ρ⟩ (fun r => ∀ c : Dev nD,
      r.2.mem ((c.tc : Thread nD τ).loc main_v2_0) = out0 m c
      ∧ r.2.mem ((c.tc : Thread nD τ).loc main_v2_1) = out1 m c
      ∧ r.2.mem ((c.tc : Thread nD τ).loc main_v5_0) = out2 m c
      ∧ r.2.mem ((c.tc : Thread nD τ).loc main_v5_1) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h0, h1, h2, h3, ha⟩ := h c
    exact ⟨h0.trans (res0 m ρ c), h1.trans (res1 m ρ c), h2.trans (res2 m ρ c), h3.trans (res3 m ρ c), ha⟩)
    (run_values (F := Ideal) m ρ)

end Results

end Cert.KernelIdeal.HistRun

end
-- ==== Proof.RefHist.lean ====
/-
  The reference's four results are the histograms of its four arrays of flattened boxes.

  For each input the reference sums every box over its two box axes, takes the integer part (the popcount), compares
  the popcounts with the bin numbers, sums the comparison bits over the row's boxes AS 32-BIT INTEGERS, converts the
  total to a float, divides by the number of patches and then by the row's sum of those quotients.  With 32768 boxes
  per row the integer total cannot wrap, so it is the count of `HistSpec`; and the sum over a box's two axes is the
  sum over the flattened box.
-/
import proofs.«177430_j31885837205965_2_alg».proof.Proof.Gen.ReferenceIdeal.Read
import proofs.«177430_j31885837205965_2_alg».proof.Proof.HistSpec
import Idealize.ShloMosaic.PureOps.Reduce
import Idealize.ShloMosaic.Lib.Pipeline.Value

noncomputable section

open Idealize.ShloMosaic Idealize.ShloMosaic.ValueIdx

namespace Cert.ReferenceIdeal.RefHist

open Cert.ReferenceIdeal Cert.ReferenceIdeal.Gen Cert.ReferenceIdeal.Read Cert.HistSpec Cert.BinCount

/-- Summing the 16-bin comparison array over its box axis leaves (row, bin). -/
theorem red16 : S16x32768x16.Reduces [1] S16x16 := by decide
/-- Summing the 64-bin comparison array over its box axis leaves (row, bin). -/
theorem red64 : S16x32768x64.Reduces [1] S16x64 := by decide

/-! ## Boxes of 4×4 (16 bins) -/

/-- The entries of box (b, p), by their two coordinates inside the box. -/
def boxEmb4 (b : Fin 16) (p : Fin 32768) : Fin 4 × Fin 4 ↪ (⟨4, ![16, 32768, 4, 4]⟩ : Shape).Idx :=
  ⟨fun kk => ix4 b p kk.1 kk.2, fun a a' h => Prod.ext (congrFun h (2 : Fin 4)) (congrFun h (3 : Fin 4))⟩

/-- The indices that a sum over the two box axes collects at (b, p) are the box's entries. -/
theorem filter_box4 (h : (⟨4, ![16, 32768, 4, 4]⟩ : Shape).ReducesTo [2, 3] ⟨2, ![16, 32768]⟩) (b : Fin 16) (p : Fin 32768) :
    (Finset.univ.filter fun i : (⟨4, ![16, 32768, 4, 4]⟩ : Shape).Idx => h.drop i = ix2 b p) = Finset.univ.map (boxEmb4 b p) := by
  ext i
  simp only [Finset.mem_filter, Finset.mem_univ, true_and, Finset.mem_map]
  constructor
  · intro hi
    refine ⟨(i 2, i 3), ?_⟩
    show ix4 b p (i 2) (i 3) = i
    have h0 : (i 0).val = b.val := congrArg Fin.val (congrFun hi (0 : Fin 2))
    have h1 : (i 1).val = p.val := congrArg Fin.val (congrFun hi (1 : Fin 2))
    funext a
    match a with
    | ⟨0, _⟩ => exact Fin.ext h0.symm
    | ⟨1, _⟩ => exact Fin.ext h1.symm
    | ⟨2, _⟩ => rfl
    | ⟨3, _⟩ => rfl
  · rintro ⟨kk, rfl⟩
    funext a
    match a with
    | ⟨0, _⟩ => rfl
    | ⟨1, _⟩ => rfl

/-- The array of flattened boxes at (b, p, k) is the box's entry (k / 4, k % 4). -/
theorem flat4_apply (x : (⟨4, ![16, 32768, 4, 4]⟩ : Shape).Idx → EReal) (h : (⟨4, ![16, 32768, 4, 4]⟩ : Shape).ShapeCasts ⟨3, ![16, 32768, 16]⟩) (b : Fin 16) (p : Fin 32768)
    (k1 : Fin 4) (k2 : Fin 4) (k : Fin 16) (hk : k.val = 4 * k1.val + k2.val) :
    shapeCast ⟨3, ![16, 32768, 16]⟩ x h (ix3 b p k) = x (ix4 b p k1 k2) := by
  refine shapeCast_apply x h (ix3 b p k) (ix4 b p k1 k2) ?_
  rw [Shape.rowMajor_val_four, Shape.rowMajor_val_three]
  show ((b.val * 32768 + p.val) * 4 + k1.val) * 4 + k2.val = (b.val * 32768 + p.val) * 16 + k.val
  omega

/-- The sum of a box's entries: over the flattened box, or over its two coordinates. -/
theorem box_sum4 (x : (⟨4, ![16, 32768, 4, 4]⟩ : Shape).Idx → EReal) (h : (⟨4, ![16, 32768, 4, 4]⟩ : Shape).ShapeCasts ⟨3, ![16, 32768, 16]⟩) (b : Fin 16) (p : Fin 32768) :
    ∑ k : Fin 16, shapeCast ⟨3, ![16, 32768, 16]⟩ x h (ix3 b p k) = ∑ kk : Fin 4 × Fin 4, x (ix4 b p kk.1 kk.2) := by
  refine (Fintype.sum_equiv (finProdFinEquiv (m := 4) (n := 4)) _ _ fun kk => ?_).symm
  exact (flat4_apply x h b p kk.1 kk.2 (finProdFinEquiv kk) (by
    show kk.2.val + 4 * kk.1.val = 4 * kk.1.val + kk.2.val; omega)).symm

/-- The reference's popcount of box (b, p) is the popcount of the flattened box. -/
theorem ref_pop16 (x : (⟨4, ![16, 32768, 4, 4]⟩ : Shape).Idx → EReal) (h : (⟨4, ![16, 32768, 4, 4]⟩ : Shape).ShapeCasts ⟨3, ![16, 32768, 16]⟩) (b : Fin 16) (p : Fin 32768) :
    val_main_v1 (F := Ideal) x (ix2 b p) = popN (shapeCast ⟨3, ![16, 32768, 16]⟩ x h) b.val p.val := by
  unfold popN
  rw [dif_pos ⟨b.isLt, p.isLt⟩]
  show Ideal.fptosi 32 (val_main_v0 (F := Ideal) x (ix2 b p)) = _
  refine congrArg (Ideal.fptosi 32) ?_
  unfold val_main_v0
  simp only [Host.reduceAdd, Ideal.hostReduceAdd_def]
  unfold Ideal.hostReduceAdd
  rw [filter_box4, Finset.sum_map]
  show val_main_cst (F := Ideal) _ + ∑ kk : Fin 4 × Fin 4, x (ix4 b p kk.1 kk.2) = _
  rw [show val_main_cst (F := Ideal) (Shape.Idx.first h_S_) = 0 from Ideal.ofBits_zero_f32, zero_add]
  exact (box_sum4 x h b p).symm

/-- The reference's count of (row, bin): the integer sum of the comparison bits over the row's boxes, as a real. -/
theorem ref_count16 (x : (⟨4, ![16, 32768, 4, 4]⟩ : Shape).Idx → EReal) (h : (⟨4, ![16, 32768, 4, 4]⟩ : Shape).ShapeCasts ⟨3, ![16, 32768, 16]⟩) (b : Fin 16) (j : Fin 16) :
    val_main_v10 (F := Ideal) x (ix2 b j) = cntN (shapeCast ⟨3, ![16, 32768, 16]⟩ x h) b.val j.val 32768 := by
  have key : ∀ q : Fin 32768, val_main_v8 (F := Ideal) x (ix3 b q j)
      = (IntOp.cmpi .eq (val_main_v1 (F := Ideal) x (ix2 b q)) (BitVec.ofNat 32 j.val)).setWidth 32 := fun q => by
    have e2 : idx_main_v3 (idx_main_v5 (ix3 b q j)) = ix2 b q :=
      funext fun a => by match a with | ⟨0, _⟩ => rfl | ⟨1, _⟩ => rfl
    rw [val_main_v8_apply, val_main_v7_apply, val_main_v5_apply, val_main_v3_apply, val_main_v6_apply, val_main_v4_apply, val_main_v2_apply, e2]
  have h9 : val_main_v9 (F := Ideal) x (ix2 b j)
      = (Finset.univ : Finset (Fin 32768)).fold IntOp.addi 0#32
          (fun q => (IntOp.cmpi .eq (val_main_v1 (F := Ideal) x (ix2 b q)) (BitVec.ofNat 32 j.val)).setWidth 32) := by
    unfold val_main_v9
    refine (Host.reduce_eq_fold_single IntOp.addi _ _ reducesTo_S16x32768x16_S16x16_d1 red16 h_S_ (ix2 b j)).trans ?_
    refine Finset.fold_congr fun q _ => ?_
    exact (congrArg (val_main_v8 (F := Ideal) x) (funext fun a => Fin.ext (by
      match a with | ⟨0, _⟩ => rfl | ⟨1, _⟩ => rfl | ⟨2, _⟩ => rfl))).trans (key q)
  show (((((val_main_v9 (F := Ideal) x (ix2 b j)).toInt : ℤ) : ℝ) : EReal)) = _
  rw [h9]
  refine (coe_toInt_fold_addi_bits (N := 32768) (by norm_num)
    (fun q => IntOp.cmpi .eq (val_main_v1 (F := Ideal) x (ix2 b q)) (BitVec.ofNat 32 j.val))).trans ?_
  unfold cntN
  rw [Finset.sum_range]
  refine Finset.sum_congr rfl fun q _ => ?_
  rw [← ref_pop16 x h b q]
  rfl

/-- The reference's result for an array of 4×4 boxes is the histogram of its flattened boxes. -/
theorem ref_hist16 (x : (⟨4, ![16, 32768, 4, 4]⟩ : Shape).Idx → EReal) (h : (⟨4, ![16, 32768, 4, 4]⟩ : Shape).ShapeCasts ⟨3, ![16, 32768, 16]⟩) :
    val_main_v16 (F := Ideal) x = fun i => hist (shapeCast ⟨3, ![16, 32768, 16]⟩ x h) (i 0).val (i 1).val := by
  funext i
  obtain ⟨b, j, rfl⟩ : ∃ (b : Fin 16) (j : Fin 16), i = ix2 b j := ⟨i 0, i 1, eq_ix2 i⟩
  have h12 : ∀ k : Fin 16, val_main_v12 (F := Ideal) x (ix2 b k)
      = Ideal.div (cntN (shapeCast ⟨3, ![16, 32768, 16]⟩ x h) b.val k.val 32768) (Ideal.ofBits .f32 patches) := fun k => by
    rw [val_main_v12_apply, val_main_v11_apply, val_main_cst_0_apply, ref_count16 x h b k]
    rfl
  rw [val_main_v16_apply, val_main_v15_apply, val_main_v14_apply, val_main_v13_apply, val_main_cst_1_apply, h12 j]
  unfold hist
  show Ideal.div _ (Ideal.ofBits .f32 0x00000000#32 + _) = _
  rw [Ideal.ofBits_zero_f32, zero_add]
  refine congrArg (Ideal.div _) (Finset.sum_congr rfl fun k _ => ?_)
  rw [← h12 k]
  exact congrArg (val_main_v12 (F := Ideal) x) (funext fun a => by match a with | ⟨0, _⟩ => rfl | ⟨1, _⟩ => rfl)

/-! ## Boxes of 8×8 (64 bins) -/

/-- The entries of box (b, p), by their two coordinates inside the box. -/
def boxEmb8 (b : Fin 16) (p : Fin 32768) : Fin 8 × Fin 8 ↪ (⟨4, ![16, 32768, 8, 8]⟩ : Shape).Idx :=
  ⟨fun kk => ix4 b p kk.1 kk.2, fun a a' h => Prod.ext (congrFun h (2 : Fin 4)) (congrFun h (3 : Fin 4))⟩

/-- The indices that a sum over the two box axes collects at (b, p) are the box's entries. -/
theorem filter_box8 (h : (⟨4, ![16, 32768, 8, 8]⟩ : Shape).ReducesTo [2, 3] ⟨2, ![16, 32768]⟩) (b : Fin 16) (p : Fin 32768) :
    (Finset.univ.filter fun i : (⟨4, ![16, 32768, 8, 8]⟩ : Shape).Idx => h.drop i = ix2 b p) = Finset.univ.map (boxEmb8 b p) := by
  ext i
  simp only [Finset.mem_filter, Finset.mem_univ, true_and, Finset.mem_map]
  constructor
  · intro hi
    refine ⟨(i 2, i 3), ?_⟩
    show ix4 b p (i 2) (i 3) = i
    have h0 : (i 0).val = b.val := congrArg Fin.val (congrFun hi (0 : Fin 2))
    have h1 : (i 1).val = p.val := congrArg Fin.val (congrFun hi (1 : Fin 2))
    funext a
    match a with
    | ⟨0, _⟩ => exact Fin.ext h0.symm
    | ⟨1, _⟩ => exact Fin.ext h1.symm
    | ⟨2, _⟩ => rfl
    | ⟨3, _⟩ => rfl
  · rintro ⟨kk, rfl⟩
    funext a
    match a with
    | ⟨0, _⟩ => rfl
    | ⟨1, _⟩ => rfl

/-- The array of flattened boxes at (b, p, k) is the box's entry (k / 8, k % 8). -/
theorem flat8_apply (x : (⟨4, ![16, 32768, 8, 8]⟩ : Shape).Idx → EReal) (h : (⟨4, ![16, 32768, 8, 8]⟩ : Shape).ShapeCasts ⟨3, ![16, 32768, 64]⟩) (b : Fin 16) (p : Fin 32768)
    (k1 : Fin 8) (k2 : Fin 8) (k : Fin 64) (hk : k.val = 8 * k1.val + k2.val) :
    shapeCast ⟨3, ![16, 32768, 64]⟩ x h (ix3 b p k) = x (ix4 b p k1 k2) := by
  refine shapeCast_apply x h (ix3 b p k) (ix4 b p k1 k2) ?_
  rw [Shape.rowMajor_val_four, Shape.rowMajor_val_three]
  show ((b.val * 32768 + p.val) * 8 + k1.val) * 8 + k2.val = (b.val * 32768 + p.val) * 64 + k.val
  omega

/-- The sum of a box's entries: over the flattened box, or over its two coordinates. -/
theorem box_sum8 (x : (⟨4, ![16, 32768, 8, 8]⟩ : Shape).Idx → EReal) (h : (⟨4, ![16, 32768, 8, 8]⟩ : Shape).ShapeCasts ⟨3, ![16, 32768, 64]⟩) (b : Fin 16) (p : Fin 32768) :
    ∑ k : Fin 64, shapeCast ⟨3, ![16, 32768, 64]⟩ x h (ix3 b p k) = ∑ kk : Fin 8 × Fin 8, x (ix4 b p kk.1 kk.2) := by
  refine (Fintype.sum_equiv (finProdFinEquiv (m := 8) (n := 8)) _ _ fun kk => ?_).symm
  exact (flat8_apply x h b p kk.1 kk.2 (finProdFinEquiv kk) (by
    show kk.2.val + 8 * kk.1.val = 8 * kk.1.val + kk.2.val; omega)).symm

/-- The reference's popcount of box (b, p) is the popcount of the flattened box. -/
theorem ref_pop64 (x : (⟨4, ![16, 32768, 8, 8]⟩ : Shape).Idx → EReal) (h : (⟨4, ![16, 32768, 8, 8]⟩ : Shape).ShapeCasts ⟨3, ![16, 32768, 64]⟩) (b : Fin 16) (p : Fin 32768) :
    val_main_v18 (F := Ideal) x (ix2 b p) = popN (shapeCast ⟨3, ![16, 32768, 64]⟩ x h) b.val p.val := by
  unfold popN
  rw [dif_pos ⟨b.isLt, p.isLt⟩]
  show Ideal.fptosi 32 (val_main_v17 (F := Ideal) x (ix2 b p)) = _
  refine congrArg (Ideal.fptosi 32) ?_
  unfold val_main_v17
  simp only [Host.reduceAdd, Ideal.hostReduceAdd_def]
  unfold Ideal.hostReduceAdd
  rw [filter_box8, Finset.sum_map]
  show val_main_cst_2 (F := Ideal) _ + ∑ kk : Fin 8 × Fin 8, x (ix4 b p kk.1 kk.2) = _
  rw [show val_main_cst_2 (F := Ideal) (Shape.Idx.first h_S_) = 0 from Ideal.ofBits_zero_f32, zero_add]
  exact (box_sum8 x h b p).symm

/-- The reference's count of (row, bin): the integer sum of the comparison bits over the row's boxes, as a real. -/
theorem ref_count64 (x : (⟨4, ![16, 32768, 8, 8]⟩ : Shape).Idx → EReal) (h : (⟨4, ![16, 32768, 8, 8]⟩ : Shape).ShapeCasts ⟨3, ![16, 32768, 64]⟩) (b : Fin 16) (j : Fin 64) :
    val_main_v27 (F := Ideal) x (ix2 b j) = cntN (shapeCast ⟨3, ![16, 32768, 64]⟩ x h) b.val j.val 32768 := by
  have key : ∀ q : Fin 32768, val_main_v25 (F := Ideal) x (ix3 b q j)
      = (IntOp.cmpi .eq (val_main_v18 (F := Ideal) x (ix2 b q)) (BitVec.ofNat 32 j.val)).setWidth 32 := fun q => by
    have e2 : idx_main_v20 (idx_main_v22 (ix3 b q j)) = ix2 b q :=
      funext fun a => by match a with | ⟨0, _⟩ => rfl | ⟨1, _⟩ => rfl
    rw [val_main_v25_apply, val_main_v24_apply, val_main_v22_apply, val_main_v20_apply, val_main_v23_apply, val_main_v21_apply, val_main_v19_apply, e2]
  have h9 : val_main_v26 (F := Ideal) x (ix2 b j)
      = (Finset.univ : Finset (Fin 32768)).fold IntOp.addi 0#32
          (fun q => (IntOp.cmpi .eq (val_main_v18 (F := Ideal) x (ix2 b q)) (BitVec.ofNat 32 j.val)).setWidth 32) := by
    unfold val_main_v26
    refine (Host.reduce_eq_fold_single IntOp.addi _ _ reducesTo_S16x32768x64_S16x64_d1 red64 h_S_ (ix2 b j)).trans ?_
    refine Finset.fold_congr fun q _ => ?_
    exact (congrArg (val_main_v25 (F := Ideal) x) (funext fun a => Fin.ext (by
      match a with | ⟨0, _⟩ => rfl | ⟨1, _⟩ => rfl | ⟨2, _⟩ => rfl))).trans (key q)
  show (((((val_main_v26 (F := Ideal) x (ix2 b j)).toInt : ℤ) : ℝ) : EReal)) = _
  rw [h9]
  refine (coe_toInt_fold_addi_bits (N := 32768) (by norm_num)
    (fun q => IntOp.cmpi .eq (val_main_v18 (F := Ideal) x (ix2 b q)) (BitVec.ofNat 32 j.val))).trans ?_
  unfold cntN
  rw [Finset.sum_range]
  refine Finset.sum_congr rfl fun q _ => ?_
  rw [← ref_pop64 x h b q]
  rfl

/-- The reference's result for an array of 8×8 boxes is the histogram of its flattened boxes. -/
theorem ref_hist64 (x : (⟨4, ![16, 32768, 8, 8]⟩ : Shape).Idx → EReal) (h : (⟨4, ![16, 32768, 8, 8]⟩ : Shape).ShapeCasts ⟨3, ![16, 32768, 64]⟩) :
    val_main_v33 (F := Ideal) x = fun i => hist (shapeCast ⟨3, ![16, 32768, 64]⟩ x h) (i 0).val (i 1).val := by
  funext i
  obtain ⟨b, j, rfl⟩ : ∃ (b : Fin 16) (j : Fin 64), i = ix2 b j := ⟨i 0, i 1, eq_ix2 i⟩
  have h12 : ∀ k : Fin 64, val_main_v29 (F := Ideal) x (ix2 b k)
      = Ideal.div (cntN (shapeCast ⟨3, ![16, 32768, 64]⟩ x h) b.val k.val 32768) (Ideal.ofBits .f32 patches) := fun k => by
    rw [val_main_v29_apply, val_main_v28_apply, val_main_cst_4_apply, ref_count64 x h b k]
    rfl
  rw [val_main_v33_apply, val_main_v32_apply, val_main_v31_apply, val_main_v30_apply, val_main_cst_5_apply, h12 j]
  unfold hist
  show Ideal.div _ (Ideal.ofBits .f32 0x00000000#32 + _) = _
  rw [Ideal.ofBits_zero_f32, zero_add]
  refine congrArg (Ideal.div _) (Finset.sum_congr rfl fun k _ => ?_)
  rw [← h12 k]
  exact congrArg (val_main_v29 (F := Ideal) x) (funext fun a => by match a with | ⟨0, _⟩ => rfl | ⟨1, _⟩ => rfl)

/-! ## The second pair of inputs goes through the same operations -/

theorem v50_eq_v16 (x : (⟨4, ![16, 32768, 4, 4]⟩ : Shape).Idx → EReal) : val_main_v50 (F := Ideal) x = val_main_v16 (F := Ideal) x := rfl
theorem v67_eq_v33 (x : (⟨4, ![16, 32768, 8, 8]⟩ : Shape).Idx → EReal) : val_main_v67 (F := Ideal) x = val_main_v33 (F := Ideal) x := rfl

end Cert.ReferenceIdeal.RefHist

end
-- ==== Proof.lean ====
/-
  The certificate of the fused popcount-histogram kernel against its jnp reference.

  Both programs take four arrays of boxes (two of 4×4 boxes, two of 8×8 boxes; 16 rows of 32768 boxes each) and return,
  for each array, the normalised histogram of box popcounts per row: the popcount of a box is the integer part of the
  sum of its entries; bin j of row b counts the row's boxes with popcount j (j below the box size); the counts are
  divided by the number of patches and then by the row's sum of those quotients.

  The kernel flattens each box, walks a 2 × 16 grid per pair of arrays and accumulates the counts of 2048 boxes per
  point into a block of 8 rows, normalising at the last point of each row block (`K0Accum`, `K1Accum`; the arrays
  after the regions: `K0Final`, `K1Final`, `KRun`).  The reference sums each box over its two axes and counts with
  32-bit integers (`RefHist`).  Over the extended reals both are the function `HistSpec.hist` of the flattened
  arrays: a float sum of zeros and ones is the exact count, the integer sum of at most 32768 ones does not wrap, and a
  sum over a box does not depend on how the box is laid out.  No finiteness of the inputs is used.
-/
import proofs.«177430_j31885837205965_2_alg».proof.Defs
import proofs.«177430_j31885837205965_2_alg».proof.Proof.Gen.Kernel
import proofs.«177430_j31885837205965_2_alg».proof.Proof.Gen.Kernel.Frame
import proofs.«177430_j31885837205965_2_alg».proof.Proof.Gen.KernelIdeal
import proofs.«177430_j31885837205965_2_alg».proof.Proof.Gen.KernelIdeal.Frame
import proofs.«177430_j31885837205965_2_alg».proof.Proof.Gen.ReferenceIdeal
import proofs.«177430_j31885837205965_2_alg».proof.Proof.Gen.Pre_finite_inputs
import proofs.«177430_j31885837205965_2_alg».proof.Proof.Gen.ReferenceIdeal.Run
import proofs.«177430_j31885837205965_2_alg».proof.Proof.Gen.ReferenceIdeal.Read
import proofs.«177430_j31885837205965_2_alg».proof.Proof.KRun
import proofs.«177430_j31885837205965_2_alg».proof.Proof.RefHist
import Idealize.ShloMosaic.Adequacy
import Idealize.ShloMosaic.Init

noncomputable section

namespace Cert.Proof

open Idealize.ShloMosaic Idealize.ShloMosaic.TcCoe Idealize.SL.Sem
open Cert.HistSpec

namespace HistClaims

open Cert.KernelIdeal Cert.KernelIdeal.Gen

theorem frame_k : Cert.frame_Kernel := fun m ρ _ => Cert.Kernel.Gen.frame m ρ

theorem frame_ki : Cert.frame_KernelIdeal := fun m ρ _ => Cert.KernelIdeal.Gen.frame m ρ

/-- The reference is a host program: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing. -/
theorem preserves : Cert.preserves_Kernel_KernelIdeal := trivial

/-- Both programs end with the four histograms of the flattened argument arrays. -/
theorem algebraic : Cert.algebraic_KernelIdeal_ReferenceIdeal := by
  intro m ρ m' ρ' _ hagree
  refine ⟨fun c => HistRun.out0 m c, fun c => HistRun.out1 m c, fun c => HistRun.out2 m c, fun c => HistRun.out3 m c,
    HistRun.run_hist m ρ, ?_⟩
  refine (θ_run Cert.ReferenceIdeal.defs _ _).mono (fun r h c => ?_) (Cert.ReferenceIdeal.Value.run (F := Ideal) m' ρ')
  obtain ⟨h0, h1, h2, h3, ha⟩ := h c
  obtain ⟨g0, g1, g2, g3⟩ := hagree c
  refine ⟨?_, ?_, ?_, ?_, ha⟩
  · rw [h0, Cert.ReferenceIdeal.Read.val_main_v16_eq, g0,
      Cert.ReferenceIdeal.RefHist.ref_hist16 _ Facts₀.shapeCasts_S16x32768x4x4_S16x32768x16]
    rfl
  · rw [h1, Cert.ReferenceIdeal.Read.val_main_v33_eq, g1,
      Cert.ReferenceIdeal.RefHist.ref_hist64 _ Facts₀.shapeCasts_S16x32768x8x8_S16x32768x64]
    rfl
  · rw [h2, Cert.ReferenceIdeal.Read.val_main_v50_eq, g2, Cert.ReferenceIdeal.RefHist.v50_eq_v16,
      Cert.ReferenceIdeal.RefHist.ref_hist16 _ Facts₀.shapeCasts_S16x32768x4x4_S16x32768x16]
    rfl
  · rw [h3, Cert.ReferenceIdeal.Read.val_main_v67_eq, g3, Cert.ReferenceIdeal.RefHist.v67_eq_v33,
      Cert.ReferenceIdeal.RefHist.ref_hist64 _ Facts₀.shapeCasts_S16x32768x8x8_S16x32768x64]
    rfl

end HistClaims

theorem claim : Cert.Claim := ⟨Cert.Kernel.Gen.facts, Cert.KernelIdeal.Gen.facts, Cert.ReferenceIdeal.Gen.facts, Cert.Pre_finite_inputs.Gen.facts,
  HistClaims.frame_k, HistClaims.frame_ki, HistClaims.frame_ri, HistClaims.preserves, HistClaims.algebraic⟩

end Cert.Proof

end
